-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128 .f32) (main_v48 : IVec S_ 1) (main_v49 : FVec F S512x128 .f32) (main_v50 : FVec F S512x128 .f32) : IVec S_ 1 :=
  let main_v51 : IVec S512x128 1 := cmpf .olt main_v49 main_v50
  let main_c_19 : IVec S_ 1 := constantI S_ 1 1#1
  let main_v52 : IVec S_ 1 := (fun x v => Host.reduce IntOp.andi x v reducesTo_S512x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S512x512 .f32) (main_arg9 : FVec F S512 .f32) (main_arg10 : FVec F S512x512 .f32) (main_arg11 : FVec F S512x128 .f32) (main_arg12 : FVec F S128 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg10
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512x128 .f32 := Host.absf main_arg11
  let main_cst_18 : FVec F S_ .f32 := constant S_ .f32 0x7F800000#32
  let main_v50 : FVec F S512x128 .f32 := broadcastInDim S512x128 ![] bcast_S_S512x128 main_cst_18
  fn_part3 (F := F) main_arg12 main_v48 main_v49 main_v50

def fn_part1 {F : FTy → Type} [FloatOps F] (main_arg5 : FVec F S512x512 .f32) (main_arg6 : FVec F S512 .f32) (main_arg7 : FVec F S512x512 .f32) (main_arg8 : FVec F S512x512 .f32) (main_arg9 : FVec F S512 .f32) (main_arg10 : FVec F S512x512 .f32) (main_arg11 : FVec F S512x128 .f32) (main_arg12 : FVec F S128 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S10000x512 .f32) (main_arg1 : IVec S2x160000 32) (main_arg2 : FVec F S512x512 .f32) (main_arg3 : FVec F S512 .f32) (main_arg4 : FVec F S512x512 .f32) (main_arg5 : FVec F S512x512 .f32) (main_arg6 : FVec F S512 .f32) (main_arg7 : FVec F S512x512 .f32) (main_arg8 : FVec F S512x512 .f32) (main_arg9 : FVec F S512 .f32) (main_arg10 : FVec F S512x512 .f32) (main_arg11 : FVec F S512x128 .f32) (main_arg12 : FVec F S128 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_arg10 main_arg11 main_arg12 main_v13 main_v16
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S1x512 : Shape := ⟨2, ![1, 512]⟩
abbrev S2000x512 : Shape := ⟨2, ![2000, 512]⟩
abbrev S1x128 : Shape := ⟨2, ![1, 128]⟩
abbrev S10000x128 : Shape := ⟨2, ![10000, 128]⟩
abbrev S2000x128 : Shape := ⟨2, ![2000, 128]⟩

abbrev nBuf : Space → Nat
  | .hbm => 113
  | .vmem => 33
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512x128, .f32⟩
  | .hbm, ⟨12, _⟩ => ⟨S128, .f32⟩
  | .hbm, ⟨13, _⟩ => ⟨S1x160000, .i32⟩
  | .hbm, ⟨14, _⟩ => ⟨S160000, .i32⟩
  | .hbm, ⟨15, _⟩ => ⟨S1x160000, .i32⟩
  | .hbm, ⟨16, _⟩ => ⟨S160000, .i32⟩
  | .hbm, ⟨17, _⟩ => ⟨S_, .i32⟩
  | .hbm, ⟨18, _⟩ => ⟨S160000, .i32⟩
  | .hbm, ⟨19, _⟩ => ⟨S160000, .i1⟩
  | .hbm, ⟨20, _⟩ => ⟨S_, .i32⟩
  | .hbm, ⟨21, _⟩ => ⟨S160000, .i32⟩
  | .hbm, ⟨22, _⟩ => ⟨S160000, .i32⟩
  | .hbm, ⟨23, _⟩ => ⟨S160000, .i32⟩
  | .hbm, ⟨24, _⟩ => ⟨S160000x1, .i32⟩
  | .hbm, ⟨25, _⟩ => ⟨S160000x512, .f32⟩
  | .hbm, ⟨26, _⟩ => ⟨S_, .f32⟩
  | .hbm, ⟨27, _⟩ => ⟨S10000x512, .f32⟩
  | .hbm, ⟨28, _⟩ => ⟨S160000x1, .i32⟩
  | .hbm, ⟨29, _⟩ => ⟨S10000x512, .f32⟩
  | .hbm, ⟨30, _⟩ => ⟨S_, .f32⟩
  | .hbm, ⟨31, _⟩ => ⟨S160000, .f32⟩
  | .hbm, ⟨32, _⟩ => ⟨S_, .f32⟩
  | .hbm, ⟨33, _⟩ => ⟨S10000, .f32⟩
  | .hbm, ⟨34, _⟩ => ⟨S160000x1, .i32⟩
  | .hbm, ⟨35, _⟩ => ⟨S10000, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S10000x1, .f32⟩
  | .hbm, ⟨40, _⟩ => ⟨S10000x512, .f32⟩
  | .hbm, ⟨41, _⟩ => ⟨S10000x512, .f32⟩
  | .hbm, ⟨42, _⟩ => ⟨S10000x512, .bf16⟩
  | .hbm, ⟨43, _⟩ => ⟨S10000x512, .bf16⟩
  | .hbm, ⟨44, _⟩ => ⟨S512x512, .bf16⟩
  | .hbm, ⟨45, _⟩ => ⟨S512x512, .bf16⟩
  | .hbm, ⟨46, _⟩ => ⟨S1x512, .f32⟩
  | .hbm, ⟨47, _⟩ => ⟨S10000x512, .bf16⟩
  | .hbm, ⟨48, _⟩ => ⟨S10000x512, .f32⟩
  | .hbm, ⟨49, _⟩ => ⟨S_, .i32⟩
  | .hbm, ⟨50, _⟩ => ⟨S160000, .i32⟩
  | .hbm, ⟨51, _⟩ => ⟨S160000, .i1⟩
  | .hbm, ⟨52, _⟩ => ⟨S_, .i32⟩
  | .hbm, ⟨53, _⟩ => ⟨S160000, .i32⟩
  | .hbm, ⟨54, _⟩ => ⟨S160000, .i32⟩
  | .hbm, ⟨55, _⟩ => ⟨S160000, .i32⟩
  | .hbm, ⟨56, _⟩ => ⟨S160000x1, .i32⟩
  | .hbm, ⟨57, _⟩ => ⟨S160000x512, .f32⟩
  | .hbm, ⟨58, _⟩ => ⟨S_, .f32⟩
  | .hbm, ⟨59, _⟩ => ⟨S10000x512, .f32⟩
  | .hbm, ⟨60, _⟩ => ⟨S160000x1, .i32⟩
  | .hbm, ⟨61, _⟩ => ⟨S10000x512, .f32⟩
  | .hbm, ⟨62, _⟩ => ⟨S_, .f32⟩
  | .hbm, ⟨63, _⟩ => ⟨S160000, .f32⟩
  | .hbm, ⟨64, _⟩ => ⟨S_, .f32⟩
  | .hbm, ⟨65, _⟩ => ⟨S10000, .f32⟩
  | .hbm, ⟨66, _⟩ => ⟨S160000x1, .i32⟩
  | .hbm, ⟨67, _⟩ => ⟨S10000, .f32⟩
  | .hbm, ⟨68, _⟩ => ⟨S_, .f32⟩
  | .hbm, ⟨69, _⟩ => ⟨S10000, .f32⟩
  | .hbm, ⟨70, _⟩ => ⟨S10000, .f32⟩
  | .hbm, ⟨71, _⟩ => ⟨S10000x1, .f32⟩
  | .hbm, ⟨72, _⟩ => ⟨S10000x512, .f32⟩
  | .hbm, ⟨73, _⟩ => ⟨S10000x512, .f32⟩
  | .hbm, ⟨74, _⟩ => ⟨S10000x512, .bf16⟩
  | .hbm, ⟨75, _⟩ => ⟨S512x512, .bf16⟩
  | .hbm, ⟨76, _⟩ => ⟨S512x512, .bf16⟩
  | .hbm, ⟨77, _⟩ => ⟨S1x512, .f32⟩
  | .hbm, ⟨78, _⟩ => ⟨S10000x512, .bf16⟩
  | .hbm, ⟨79, _⟩ => ⟨S10000x512, .f32⟩
  | .hbm, ⟨80, _⟩ => ⟨S_, .i32⟩
  | .hbm, ⟨81, _⟩ => ⟨S160000, .i32⟩
  | .hbm, ⟨82, _⟩ => ⟨S160000, .i1⟩
  | .hbm, ⟨83, _⟩ => ⟨S_, .i32⟩
  | .hbm, ⟨84, _⟩ => ⟨S160000, .i32⟩
  | .hbm, ⟨85, _⟩ => ⟨S160000, .i32⟩
  | .hbm, ⟨86, _⟩ => ⟨S160000, .i32⟩
  | .hbm, ⟨87, _⟩ => ⟨S160000x1, .i32⟩
  | .hbm, ⟨88, _⟩ => ⟨S160000x512, .f32⟩
  | .hbm, ⟨89, _⟩ => ⟨S_, .f32⟩
  | .hbm, ⟨90, _⟩ => ⟨S10000x512, .f32⟩
  | .hbm, ⟨91, _⟩ => ⟨S160000x1, .i32⟩
  | .hbm, ⟨92, _⟩ => ⟨S10000x512, .f32⟩
  | .hbm, ⟨93, _⟩ => ⟨S_, .f32⟩
  | .hbm, ⟨94, _⟩ => ⟨S160000, .f32⟩
  | .hbm, ⟨95, _⟩ => ⟨S_, .f32⟩
  | .hbm, ⟨96, _⟩ => ⟨S10000, .f32⟩
  | .hbm, ⟨97, _⟩ => ⟨S160000x1, .i32⟩
  | .hbm, ⟨98, _⟩ => ⟨S10000, .f32⟩
  | .hbm, ⟨99, _⟩ => ⟨S_, .f32⟩
  | .hbm, ⟨100, _⟩ => ⟨S10000, .f32⟩
  | .hbm, ⟨101, _⟩ => ⟨S10000, .f32⟩
  | .hbm, ⟨102, _⟩ => ⟨S10000x1, .f32⟩
  | .hbm, ⟨103, _⟩ => ⟨S10000x512, .f32⟩
  | .hbm, ⟨104, _⟩ => ⟨S10000x512, .f32⟩
  | .hbm, ⟨105, _⟩ => ⟨S10000x512, .bf16⟩
  | .hbm, ⟨106, _⟩ => ⟨S512x512, .bf16⟩
  | .hbm, ⟨107, _⟩ => ⟨S512x512, .bf16⟩
  | .hbm, ⟨108, _⟩ => ⟨S1x512, .f32⟩
  | .hbm, ⟨109, _⟩ => ⟨S10000x512, .bf16⟩
  | .hbm, ⟨110, _⟩ => ⟨S512x128, .bf16⟩
  | .hbm, ⟨111, _⟩ => ⟨S1x128, .f32⟩
  | .hbm, ⟨112, _⟩ => ⟨S10000x128, .f32⟩
  | .local _ .vmem, ⟨0, _⟩ => ⟨S2000x512, .bf16⟩
  | .local _ .vmem, ⟨1, _⟩ => ⟨S2000x512, .bf16⟩
  | .local _ .vmem, ⟨2, _⟩ => ⟨S2000x512, .bf16⟩
  | .local _ .vmem, ⟨3, _⟩ => ⟨S2000x512, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S2000x512, .bf16⟩
  | .local _ .vmem, ⟨8, _⟩ => ⟨S2000x512, .bf16⟩
  | .local _ .vmem, ⟨9, _⟩ => ⟨S2000x512, .bf16⟩
  | .local _ .vmem, ⟨10, _⟩ => ⟨S2000x512, .bf16⟩
  | .local _ .vmem, ⟨11, _⟩ => ⟨S2000x512, .bf16⟩
  | .local _ .vmem, ⟨12, _⟩ => ⟨S2000x512, .bf16⟩
  | .local _ .vmem, ⟨13, _⟩ => ⟨S512x512, .bf16⟩
  | .local _ .vmem, ⟨14, _⟩ => ⟨S512x512, .bf16⟩
  | .local _ .vmem, ⟨15, _⟩ => ⟨S1x512, .f32⟩
  | .local _ .vmem, ⟨16, _⟩ => ⟨S2000x512, .bf16⟩
  | .local _ .vmem, ⟨17, _⟩ => ⟨S2000x512, .bf16⟩
  | .local _ .vmem, ⟨18, _⟩ => ⟨S2000x512, .bf16⟩
  | .local _ .vmem, ⟨19, _⟩ => ⟨S2000x512, .bf16⟩
  | .local _ .vmem, ⟨20, _⟩ => ⟨S2000x512, .bf16⟩
  | .local _ .vmem, ⟨21, _⟩ => ⟨S2000x512, .bf16⟩
  | .local _ .vmem, ⟨22, _⟩ => ⟨S512x512, .bf16⟩
  | .local _ .vmem, ⟨23, _⟩ => ⟨S512x512, .bf16⟩
  | .local _ .vmem, ⟨24, _⟩ => ⟨S1x512, .f32⟩
  | .local _ .vmem, ⟨25, _⟩ => ⟨S2000x512, .bf16⟩
  | .local _ .vmem, ⟨26, _⟩ => ⟨S2000x512, .bf16⟩
  | .local _ .vmem, ⟨27, _⟩ => ⟨S2000x512, .bf16⟩
  | .local _ .vmem, ⟨28, _⟩ => ⟨S2000x512, .bf16⟩
  | .local _ .vmem, ⟨29, _⟩ => ⟨S512x128, .bf16⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bitsLt_bf16_f32 : FTy.bits .bf16 < FTy.bits .f32
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  packedbf16_S2000x512_S2000x512_0_0 : (Rect.unit (s := S2000x512) ![0, 0] S2000x512.size inb_S2000x512_S2000x512_0_0).PackedRows (EltTy.packing .bf16)
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S2000x512_S512x512_S2000x512_1_0_0_1_n_n_wf : DotDims.WF S2000x512 S512x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .bf16 = 32 ∨ (Rect.block (s := S10000x512) S2000x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S10000x512.size a
  hwx0_1 : ∀ i : grid0.Coords, EltTy.bits .bf16 = 32 ∨ (Rect.block (s := S10000x512) S2000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S10000x512.size a
  hwx0_5 : ∀ i : grid0.Coords, EltTy.bits .bf16 = 32 ∨ (Rect.block (s := S10000x512) S2000x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S10000x512.size a
  hwx1_0 : ∀ i : grid1.Coords, EltTy.bits .bf16 = 32 ∨ (Rect.block (s := S10000x512) S2000x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S10000x512.size a
  hwx1_1 : ∀ i : grid1.Coords, EltTy.bits .bf16 = 32 ∨ (Rect.block (s := S10000x512) S2000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S10000x512.size a
  hwx1_5 : ∀ i : grid1.Coords, EltTy.bits .bf16 = 32 ∨ (Rect.block (s := S10000x512) S2000x512.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S10000x512.size a
  hwx2_0 : ∀ i : grid2.Coords, EltTy.bits .bf16 = 32 ∨ (Rect.block (s := S10000x512) S2000x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x512.size a ≤ S10000x512.size a
  hwx2_1 : ∀ i : grid2.Coords, EltTy.bits .bf16 = 32 ∨ (Rect.block (s := S10000x512) S2000x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .bf16 = 32 ∨ (Rect.block (s := S512x512) S512x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .bf16 = 32 ∨ (Rect.block (s := S512x512) S512x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x512.size a ≤ S10000x512.size a
  hwx2_5 : ∀ i : grid2.Coords, EltTy.bits .bf16 = 32 ∨ (Rect.block (s := S10000x512) S2000x512.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S10000x512.size a
  hwx3_0 : ∀ i : grid3.Coords, EltTy.bits .bf16 = 32 ∨ (Rect.block (s := S10000x512) S2000x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x128.size a ≤ S512x128.size a
  hwx3_1 : ∀ i : grid3.Coords, EltTy.bits .bf16 = 32 ∨ (Rect.block (s := S512x128) S512x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S10000x128.size a
  hwx3_3 : ∀ i : grid3.Coords, EltTy.bits .f32 = 32 ∨ (Rect.block (s := S10000x128) S2000x128.size (cc3_transform_3 i) (hinb3_3 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_v23) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v74) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S2000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v75) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S2000x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v78) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S512x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000x1 : Shape := ⟨2, ![10000, 1]⟩
abbrev S1x512 : Shape := ⟨2, ![1, 512]⟩
abbrev S10000x128 : Shape := ⟨2, ![10000, 128]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512x128, .f32⟩
  | .hbm, ⟨12, _⟩ => ⟨S128, .f32⟩
  | .hbm, ⟨13, _⟩ => ⟨S1x160000, .i32⟩
  | .hbm, ⟨14, _⟩ => ⟨S160000, .i32⟩
  | .hbm, ⟨15, _⟩ => ⟨S1x160000, .i32⟩
  | .hbm, ⟨16, _⟩ => ⟨S160000, .i32⟩
  | .hbm, ⟨17, _⟩ => ⟨S_, .i32⟩
  | .hbm, ⟨18, _⟩ => ⟨S160000, .i32⟩
  | .hbm, ⟨19, _⟩ => ⟨S160000, .i1⟩
  | .hbm, ⟨20, _⟩ => ⟨S_, .i32⟩
  | .hbm, ⟨21, _⟩ => ⟨S160000, .i32⟩
  | .hbm, ⟨22, _⟩ => ⟨S160000, .i32⟩
  | .hbm, ⟨23, _⟩ => ⟨S160000, .i32⟩
  | .hbm, ⟨24, _⟩ => ⟨S160000x1, .i32⟩
  | .hbm, ⟨25, _⟩ => ⟨S160000x512, .f32⟩
  | .hbm, ⟨26, _⟩ => ⟨S_, .f32⟩
  | .hbm, ⟨27, _⟩ => ⟨S10000x512, .f32⟩
  | .hbm, ⟨28, _⟩ => ⟨S160000x1, .i32⟩
  | .hbm, ⟨29, _⟩ => ⟨S10000x512, .f32⟩
  | .hbm, ⟨30, _⟩ => ⟨S_, .f32⟩
  | .hbm, ⟨31, _⟩ => ⟨S160000x1, .f32⟩
  | .hbm, ⟨32, _⟩ => ⟨S_, .f32⟩
  | .hbm, ⟨33, _⟩ => ⟨S10000x1, .f32⟩
  | .hbm, ⟨34, _⟩ => ⟨S160000x1, .i32⟩
  | .hbm, ⟨35, _⟩ => ⟨S10000x1, .f32⟩
  | .hbm, ⟨36, _⟩ => ⟨S_, .f32⟩
  | .hbm, ⟨37, _⟩ => ⟨S10000x1, .f32⟩
  | .hbm, ⟨38, _⟩ => ⟨S10000x1, .f32⟩
  | .hbm, ⟨39, _⟩ => ⟨S10000x512, .f32⟩
  | .hbm, ⟨40, _⟩ => ⟨S10000x512, .f32⟩
  | .hbm, ⟨41, _⟩ => ⟨S10000x512, .f32⟩
  | .hbm, ⟨42, _⟩ => ⟨S1x512, .f32⟩
  | .hbm, ⟨43, _⟩ => ⟨S10000x512, .f32⟩
  | .hbm, ⟨44, _⟩ => ⟨S10000x512, .f32⟩
  | .hbm, ⟨45, _⟩ => ⟨S10000x512, .f32⟩
  | .hbm, ⟨46, _⟩ => ⟨S10000x512, .f32⟩
  | .hbm, ⟨47, _⟩ => ⟨S_, .f32⟩
  | .hbm, ⟨48, _⟩ => ⟨S10000x512, .f32⟩
  | .hbm, ⟨49, _⟩ => ⟨S10000x512, .f32⟩
  | .hbm, ⟨50, _⟩ => ⟨S_, .i32⟩
  | .hbm, ⟨51, _⟩ => ⟨S160000, .i32⟩
  | .hbm, ⟨52, _⟩ => ⟨S160000, .i1⟩
  | .hbm, ⟨53, _⟩ => ⟨S_, .i32⟩
  | .hbm, ⟨54, _⟩ => ⟨S160000, .i32⟩
  | .hbm, ⟨55, _⟩ => ⟨S160000, .i32⟩
  | .hbm, ⟨56, _⟩ => ⟨S160000, .i32⟩
  | .hbm, ⟨57, _⟩ => ⟨S160000x1, .i32⟩
  | .hbm, ⟨58, _⟩ => ⟨S160000x512, .f32⟩
  | .hbm, ⟨59, _⟩ => ⟨S_, .f32⟩
  | .hbm, ⟨60, _⟩ => ⟨S10000x512, .f32⟩
  | .hbm, ⟨61, _⟩ => ⟨S160000x1, .i32⟩
  | .hbm, ⟨62, _⟩ => ⟨S10000x512, .f32⟩
  | .hbm, ⟨63, _⟩ => ⟨S_, .f32⟩
  | .hbm, ⟨64, _⟩ => ⟨S160000x1, .f32⟩
  | .hbm, ⟨65, _⟩ => ⟨S_, .f32⟩
  | .hbm, ⟨66, _⟩ => ⟨S10000x1, .f32⟩
  | .hbm, ⟨67, _⟩ => ⟨S160000x1, .i32⟩
  | .hbm, ⟨68, _⟩ => ⟨S10000x1, .f32⟩
  | .hbm, ⟨69, _⟩ => ⟨S_, .f32⟩
  | .hbm, ⟨70, _⟩ => ⟨S10000x1, .f32⟩
  | .hbm, ⟨71, _⟩ => ⟨S10000x1, .f32⟩
  | .hbm, ⟨72, _⟩ => ⟨S10000x512, .f32⟩
  | .hbm, ⟨73, _⟩ => ⟨S10000x512, .f32⟩
  | .hbm, ⟨74, _⟩ => ⟨S10000x512, .f32⟩
  | .hbm, ⟨75, _⟩ => ⟨S1x512, .f32⟩
  | .hbm, ⟨76, _⟩ => ⟨S10000x512, .f32⟩
  | .hbm, ⟨77, _⟩ => ⟨S10000x512, .f32⟩
  | .hbm, ⟨78, _⟩ => ⟨S10000x512, .f32⟩
  | .hbm, ⟨79, _⟩ => ⟨S10000x512, .f32⟩
  | .hbm, ⟨80, _⟩ => ⟨S_, .f32⟩
  | .hbm, ⟨81, _⟩ => ⟨S10000x512, .f32⟩
  | .hbm, ⟨82, _⟩ => ⟨S10000x512, .f32⟩
  | .hbm, ⟨83, _⟩ => ⟨S_, .i32⟩
  | .hbm, ⟨84, _⟩ => ⟨S160000, .i32⟩
  | .hbm, ⟨85, _⟩ => ⟨S160000, .i1⟩
  | .hbm, ⟨86, _⟩ => ⟨S_, .i32⟩
  | .hbm, ⟨87, _⟩ => ⟨S160000, .i32⟩
  | .hbm, ⟨88, _⟩ => ⟨S160000, .i32⟩
  | .hbm, ⟨89, _⟩ => ⟨S160000, .i32⟩
  | .hbm, ⟨90, _⟩ => ⟨S160000x1, .i32⟩
  | .hbm, ⟨91, _⟩ => ⟨S160000x512, .f32⟩
  | .hbm, ⟨92, _⟩ => ⟨S_, .f32⟩
  | .hbm, ⟨93, _⟩ => ⟨S10000x512, .f32⟩
  | .hbm, ⟨94, _⟩ => ⟨S160000x1, .i32⟩
  | .hbm, ⟨95, _⟩ => ⟨S10000x512, .f32⟩
  | .hbm, ⟨96, _⟩ => ⟨S_, .f32⟩
  | .hbm, ⟨97, _⟩ => ⟨S160000x1, .f32⟩
  | .hbm, ⟨98, _⟩ => ⟨S_, .f32⟩
  | .hbm, ⟨99, _⟩ => ⟨S10000x1, .f32⟩
  | .hbm, ⟨100, _⟩ => ⟨S160000x1, .i32⟩
  | .hbm, ⟨101, _⟩ => ⟨S10000x1, .f32⟩
  | .hbm, ⟨102, _⟩ => ⟨S_, .f32⟩
  | .hbm, ⟨103, _⟩ => ⟨S10000x1, .f32⟩
  | .hbm, ⟨104, _⟩ => ⟨S10000x1, .f32⟩
  | .hbm, ⟨105, _⟩ => ⟨S10000x512, .f32⟩
  | .hbm, ⟨106, _⟩ => ⟨S10000x512, .f32⟩
  | .hbm, ⟨107, _⟩ => ⟨S10000x512, .f32⟩
  | .hbm, ⟨108, _⟩ => ⟨S1x512, .f32⟩
  | .hbm, ⟨109, _⟩ => ⟨S10000x512, .f32⟩
  | .hbm, ⟨110, _⟩ => ⟨S10000x512, .f32⟩
  | .hbm, ⟨111, _⟩ => ⟨S10000x512, .f32⟩
  | .hbm, ⟨112, _⟩ => ⟨S10000x512, .f32⟩
  | .hbm, ⟨113, _⟩ => ⟨S_, .f32⟩
  | .hbm, ⟨114, _⟩ => ⟨S10000x512, .f32⟩
  | .hbm, ⟨115, _⟩ => ⟨S10000x512, .f32⟩
  | .hbm, ⟨116, _⟩ => ⟨S10000x128, .f32⟩
  | .hbm, ⟨117, _⟩ => ⟨S1x128, .f32⟩
  | .hbm, ⟨118, _⟩ => ⟨S10000x128, .f32⟩
  | .hbm, ⟨119, _⟩ => ⟨S10000x128, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_cst : Ref sig .tc := ⟨.hbm, 47, rfl⟩
abbrev main_call0_v0 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call1_cst : Ref sig .tc := ⟨.hbm, 80, rfl⟩
abbrev main_call1_v0 : Ref sig .tc := ⟨.hbm, 81, rfl⟩
abbrev main_v53 : Ref sig .tc := ⟨.hbm, 82, rfl⟩
abbrev main_c_10 : Ref sig .tc := ⟨.hbm, 83, rfl⟩
abbrev main_v54 : Ref sig .tc := ⟨.hbm, 84, rfl⟩
abbrev main_v55 : Ref sig .tc := ⟨.hbm, 85, rfl⟩
abbrev main_c_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_cst_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_15 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_call2_cst : Ref sig .tc := ⟨.hbm, 113, rfl⟩
abbrev main_call2_v0 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S160000x1 : S_.BroadcastsInDim S160000x1 (![] : Fin 0 → Fin S160000x1.rank)
  bcast_S_S10000x1 : S_.BroadcastsInDim S10000x1 (![] : Fin 0 → Fin S10000x1.rank)
  bcast_S10000x1_S10000x512_0_1 : S10000x1.BroadcastsInDim S10000x512 (![0, 1] : Fin 2 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000x1_S160000x1_S160000x1_1_0_0_1_wf : ScatterDims.WF S10000x1 S160000x1 S160000x1 [1] [0] [0] 1
  dot_S10000x512_S512x512_S10000x512_1_0_0_1_n_n_wf : DotDims.WF S10000x512 S512x512 S10000x512 [1] [0] [0] [1] [] []
  dot_S10000x512_S512x128_S10000x128_1_0_0_1_n_n_wf : DotDims.WF S10000x512 S512x128 S10000x128 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000x1_S160000x1_S160000x1_1_0_0_1 : ScatterDims S10000x1 S160000x1 S160000x1 where
  updateWindowDims := [1]
  insertedWindowDims := [0]
  scatterDimsToOperandDims := [0]
  indexVectorDim := 1
  wf := scatter_S10000x1_S160000x1_S160000x1_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf

class Facts : Prop extends Facts₀ where

variable [Facts]
-- ==== Proof.KerRun.lean ====
/-
  The idealized kernel program's run with its result array named.

  The program is four tiled regions among stretches of host operations. Every weakly fair execution from a memory with
  zero counters terminates without a fault; at the end the thirteen argument arrays hold what they held at the launch,
  and the result array holds the contents that the last region's write-backs leave, written `W8 m ρ c` at the result's
  reference: the launch memory carried through the host stretches and the regions in program order.
-/
import proofs.«148625_j86285892977273_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last region's
    exit contents and the argument arrays as launched. -/
theorem run_named : θ_run defs (onTc (τ := τ) (main (F := F))) ⟨m, fun _ => 0, ρ⟩ (fun r => ∀ c : Dev nD,
      r.2.mem ((c.tc : Thread nD τ).loc main_v81) = W8 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v81 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.Named

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LibMatProd.lean ====
/-
  The product of an M×K and a K×N array of extended reals as ONE function of the two arrays: entry (i, q) is the sum over
  k of l(i, k) · r(k, q). A host dot product with plain matrix-product dimension numbers, and a matrix-unit product into
  a zero accumulator, are that function at the ideal instance; and an entry of the product depends only on row i of the
  left operand and column q of the right one, so the product of a block of rows with the right operand is that block of
  rows of the whole product.
-/
import proofs.«148625_j86285892977273_1_alg».proof.Proof.LibDotPlain

noncomputable section

open scoped BigOperators

namespace Idealize.ShloMosaic.MatProd

open Idealize.ShloMosaic Idealize.ShloMosaic.ValueIdx Idealize.ShloMosaic.DotPlain

/-- Entry (i, q) of the product: the sum over k of l(i, k) · r(k, q). -/
def matProd {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

variable {M K N : Nat} {d : DotDims ⟨2, ![M, K]⟩ ⟨2, ![K, N]⟩ ⟨2, ![M, N]⟩}

/-- A host dot product with plain dimension numbers is the product. -/
theorem dotGeneral_eq (h : IsPlain d) (prec : Option ContractPrecision) {φ₁ φ₂ : FTy}
    (l : FVec Ideal ⟨2, ![M, K]⟩ φ₁) (r : FVec Ideal ⟨2, ![K, N]⟩ φ₂) :
    Host.dotGeneral d prec l r = matProd l r :=
  funext fun j => DotPlain.dotGeneral_apply h prec l r j

/-- A matrix-unit product into a zero accumulator is the product, at an entry. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = matProd l r j :=
  DotPlain.matmul_zero_apply h prec l r j

/-- An entry of a product of a block of rows (and a copy of the right operand) is the entry of the whole product whose
    row the block's row is: the sums agree term by term. -/
theorem matProd_of_rows {B : Nat} (lb : (⟨2, ![B, K]⟩ : Shape).Idx → EReal) (rb : (⟨2, ![K, N]⟩ : Shape).Idx → EReal)
    (l : (⟨2, ![M, K]⟩ : Shape).Idx → EReal) (r : (⟨2, ![K, N]⟩ : Shape).Idx → EReal)
    (p : Fin B) (q : Fin N) (i : Fin M)
    (hl : ∀ k : Fin K, lb (ix2 p k) = l (ix2 i k)) (hr : ∀ k : Fin K, rb (ix2 k q) = r (ix2 k q)) :
    matProd lb rb (ix2 p q) = matProd l r (ix2 i q) :=
  Finset.sum_congr rfl fun k _ => by
    show lb (ix2 p k) * rb (ix2 k q) = l (ix2 i k) * r (ix2 k q)
    rw [hl k, hr k]

end Idealize.ShloMosaic.MatProd

end
-- ==== Proof.Spec.lean ====
/-
  One layer of a graph network that mixes a node's averaged neighbour features with the node's own features, and the
  linear read-out that follows the layers, as functions of arrays of extended reals.

  For an n×a array A of averaged neighbour features, an n×a array X of node features, two a×h weight arrays Wl and Wr
  and a bias row b (a 1×h array), the layer's entry (i, q) is

      max ( (∑ₖ A(i,k)·Wl(k,q) + ∑ₖ X(i,k)·Wr(k,q)) + b(0,q) , 0 ),

  and the read-out of an n×a array X with an a×h weight array W and a bias row b has entry (i, q)

      ∑ₖ X(i,k)·W(k,q) + b(0,q).

  Both depend, at row i, only on row i of A and X: a block of rows of the result is the same function of that block of
  rows of A and X. Addition of extended reals is commutative and associative, so the bias may be added before or after
  the second product; no finiteness is needed for that.
-/
import proofs.«148625_j86285892977273_1_alg».proof.Proof.LibMatProd

noncomputable section

open scoped BigOperators

namespace Cert.Sage

open Idealize.ShloMosaic Idealize.ShloMosaic.ValueIdx Idealize.ShloMosaic.MatProd

/-- Entry (i, q) of a layer: the two products added, then the bias of column q, then the maximum with zero. -/
def layer {n a h : Nat} (A X : (⟨2, ![n, a]⟩ : Shape).Idx → EReal) (Wl Wr : (⟨2, ![a, h]⟩ : Shape).Idx → EReal)
    (b : (⟨2, ![1, h]⟩ : Shape).Idx → EReal) : (⟨2, ![n, h]⟩ : Shape).Idx → EReal :=
  fun i => max (matProd A Wl i + matProd X Wr i + b (ix2 0 (i 1))) 0

/-- Entry (i, q) of the read-out: the product plus the bias of column q. -/
def readout {n a h : Nat} (X : (⟨2, ![n, a]⟩ : Shape).Idx → EReal) (W : (⟨2, ![a, h]⟩ : Shape).Idx → EReal)
    (b : (⟨2, ![1, h]⟩ : Shape).Idx → EReal) : (⟨2, ![n, h]⟩ : Shape).Idx → EReal :=
  fun i => matProd X W i + b (ix2 0 (i 1))

theorem layer_apply {n a h : Nat} (A X : (⟨2, ![n, a]⟩ : Shape).Idx → EReal) (Wl Wr : (⟨2, ![a, h]⟩ : Shape).Idx → EReal)
    (b : (⟨2, ![1, h]⟩ : Shape).Idx → EReal) (i : Fin n) (q : Fin h) :
    layer A X Wl Wr b (ix2 i q) = max (matProd A Wl (ix2 i q) + matProd X Wr (ix2 i q) + b (ix2 0 q)) 0 := rfl

theorem readout_apply {n a h : Nat} (X : (⟨2, ![n, a]⟩ : Shape).Idx → EReal) (W : (⟨2, ![a, h]⟩ : Shape).Idx → EReal)
    (b : (⟨2, ![1, h]⟩ : Shape).Idx → EReal) (i : Fin n) (q : Fin h) :
    readout X W b (ix2 i q) = matProd X W (ix2 i q) + b (ix2 0 q) := rfl

/-- Row p of a layer computed on a block of rows is row i of the layer computed on the whole arrays, when row p of each
    block is row i of its array. -/
theorem layer_of_rows {B n a h : Nat} (Ab Xb : (⟨2, ![B, a]⟩ : Shape).Idx → EReal) (A X : (⟨2, ![n, a]⟩ : Shape).Idx → EReal)
    (Wl Wr : (⟨2, ![a, h]⟩ : Shape).Idx → EReal) (b : (⟨2, ![1, h]⟩ : Shape).Idx → EReal) (p : Fin B) (q : Fin h) (i : Fin n)
    (hA : ∀ k : Fin a, Ab (ix2 p k) = A (ix2 i k)) (hX : ∀ k : Fin a, Xb (ix2 p k) = X (ix2 i k)) :
    layer Ab Xb Wl Wr b (ix2 p q) = layer A X Wl Wr b (ix2 i q) := by
  rw [layer_apply, layer_apply, matProd_of_rows Ab Wl A Wl p q i hA (fun _ => rfl),
    matProd_of_rows Xb Wr X Wr p q i hX (fun _ => rfl)]

/-- Row p of a read-out computed on a block of rows is row i of the read-out of the whole array. -/
theorem readout_of_rows {B n a h : Nat} (Xb : (⟨2, ![B, a]⟩ : Shape).Idx → EReal) (X : (⟨2, ![n, a]⟩ : Shape).Idx → EReal)
    (W : (⟨2, ![a, h]⟩ : Shape).Idx → EReal) (b : (⟨2, ![1, h]⟩ : Shape).Idx → EReal) (p : Fin B) (q : Fin h) (i : Fin n)
    (hX : ∀ k : Fin a, Xb (ix2 p k) = X (ix2 i k)) :
    readout Xb W b (ix2 p q) = readout X W b (ix2 i q) := by
  rw [readout_apply, readout_apply, matProd_of_rows Xb W X W p q i hX (fun _ => rfl)]

/-- The bias added between the two products instead of after them gives the same layer entry. -/
theorem layer_bias_first {n a h : Nat} (A X : (⟨2, ![n, a]⟩ : Shape).Idx → EReal) (Wl Wr : (⟨2, ![a, h]⟩ : Shape).Idx → EReal)
    (b : (⟨2, ![1, h]⟩ : Shape).Idx → EReal) (i : Fin n) (q : Fin h) :
    max (matProd A Wl (ix2 i q) + b (ix2 0 q) + matProd X Wr (ix2 i q)) 0 = layer A X Wl Wr b (ix2 i q) := by
  rw [layer_apply, add_right_comm]

end Cert.Sage

end
-- ==== Proof.Body.lean ====
/-
  What a tile of the kernel computes, as a function of the tile's operands.

  The layer kernel's tile takes a block of rows of the averaged neighbour features and of the node features, the two
  weight arrays and the bias row, multiplies each block by its weights into a zero accumulator, adds the two products,
  adds the bias row to every row, and takes the maximum with zero: entry (p, q) of its result is entry (p, q) of the
  layer of the specification computed on the blocks. The read-out kernel's tile multiplies a block of rows by the
  read-out weights and adds the bias row: the read-out of the specification computed on the block. A change of float
  format is the identity on extended reals, so the narrowing before the store does not show.
-/
import proofs.«148625_j86285892977273_1_alg».proof.Proof.Gen.KernelIdeal.Skeleton
import proofs.«148625_j86285892977273_1_alg».proof.Proof.Spec
import Idealize.ShloMosaic.Lib.Pipeline.Value
import Idealize.ShloMosaic.Lib.ValueIdx
import Idealize.ShloMosaic.Lib.IdealHost

noncomputable section

namespace Cert.KernelIdeal.Body

open Cert.KernelIdeal Cert.KernelIdeal.Gen
open Idealize.ShloMosaic Idealize.ShloMosaic.ValueIdx Idealize.ShloMosaic.DotPlain Idealize.ShloMosaic.MatProd

/-- The tile product of the layers is a plain matrix product. -/
theorem plain_layer : IsPlain dot_S2000x512_S512x512_S2000x512_1_0_0_1_n_n := ⟨rfl, rfl, rfl, rfl, rfl, rfl⟩

/-- The tile product of the read-out is a plain matrix product. -/
theorem plain_readout : IsPlain dot_S2000x512_S512x128_S2000x128_1_0_0_1_n_n := ⟨rfl, rfl, rfl, rfl, rfl, rfl⟩

/-- The bias row repeated on every row of a tile, read at (p, q): the row's entry q. -/
theorem bias_rows_512 (b : FVec Ideal S1x512 .f32) (p : Fin 2000) (q : Fin 512) :
    broadcastTo S2000x512 b broadcasts_S1x512_S2000x512 (ix2 p q) = b (ix2 0 q) :=
  broadcastTo_apply b broadcasts_S1x512_S2000x512 (ix2 p q) (ix2 0 q) (fun a => match a with
    | ⟨0, _⟩ => rfl
    | ⟨1, _⟩ => rfl)

theorem bias_rows_128 (b : FVec Ideal S1x128 .f32) (p : Fin 2000) (q : Fin 128) :
    broadcastTo S2000x128 b broadcasts_S1x128_S2000x128 (ix2 p q) = b (ix2 0 q) :=
  broadcastTo_apply b broadcasts_S1x128_S2000x128 (ix2 p q) (ix2 0 q) (fun a => match a with
    | ⟨0, _⟩ => rfl
    | ⟨1, _⟩ => rfl)

/-- THE LAYER TILE is the specification's layer of its operands. -/
theorem layer_tile (x0 x1 : FVec Ideal S2000x512 .bf16) (x2 x3 : FVec Ideal S512x512 .bf16) (x4 : FVec Ideal S1x512 .f32) :
    k0_pay1 (F := Ideal) x0 x1 x2 x3 x4 = Cert.Sage.layer x0 x1 x2 x3 x4 := by
  funext j
  obtain ⟨p, q, rfl⟩ : ∃ (p : Fin 2000) (q : Fin 512), j = ix2 p q := ⟨j 0, j 1, eq_ix2 j⟩
  unfold k0_pay1
  simp only [shapeCast_self]
  show max (matmul dot_S2000x512_S512x512_S2000x512_1_0_0_1_n_n none x0 x2 (constant (F := Ideal) S2000x512 .f32 0x00000000#32) (ix2 p q)
      + matmul dot_S2000x512_S512x512_S2000x512_1_0_0_1_n_n none x1 x3 (constant (F := Ideal) S2000x512 .f32 0x00000000#32) (ix2 p q)
      + broadcastTo S2000x512 x4 broadcasts_S1x512_S2000x512 (ix2 p q)) (Ideal.ofBits .f32 0x00000000#32) = _
  rw [MatProd.matmul_zero_apply plain_layer, MatProd.matmul_zero_apply plain_layer, bias_rows_512, Ideal.ofBits_zero_f32,
    Cert.Sage.layer_apply]

/-- The three layer kernels have the same tile. -/
theorem tile1_eq : @k1_pay1 Ideal _ = @k0_pay1 Ideal _ := rfl
theorem tile2_eq : @k2_pay1 Ideal _ = @k0_pay1 Ideal _ := rfl

/-- THE READ-OUT TILE is the specification's read-out of its operands. -/
theorem readout_tile (x0 : FVec Ideal S2000x512 .bf16) (x1 : FVec Ideal S512x128 .bf16) (x2 : FVec Ideal S1x128 .f32) :
    k3_pay1 (F := Ideal) x0 x1 x2 = Cert.Sage.readout x0 x1 x2 := by
  funext j
  obtain ⟨p, q, rfl⟩ : ∃ (p : Fin 2000) (q : Fin 128), j = ix2 p q := ⟨j 0, j 1, eq_ix2 j⟩
  unfold k3_pay1
  simp only [shapeCast_self]
  show matmul dot_S2000x512_S512x128_S2000x128_1_0_0_1_n_n none x0 x1 (constant (F := Ideal) S2000x128 .f32 0x00000000#32) (ix2 p q)
      + broadcastTo S2000x128 x2 broadcasts_S1x128_S2000x128 (ix2 p q) = _
  rw [MatProd.matmul_zero_apply plain_readout, bias_rows_128, Cert.Sage.readout_apply]

end Cert.KernelIdeal.Body

end
-- ==== Proof.Region0.lean ====
/-
  Layer 1's tiled region, read as one whole-array function of the arrays it finds on entry.

  The region walks five grid points; point t takes rows 2000·t … 2000·t + 1999 of the aggregate array and of the
  feature array, the whole of both weight arrays and of the bias row, and writes back rows 2000·t … 2000·t + 1999 of
  the output. The five output blocks tile the 10000 rows, and row p of the tile's result is row 2000·t + p of the
  specification's layer of the whole arrays, since a layer's row depends only on that row of the aggregate and of the
  features. So after the region the output array is the layer of the entry contents of its five input arrays.
-/
import proofs.«148625_j86285892977273_1_alg».proof.Proof.Gen.KernelIdeal.Frame
import proofs.«148625_j86285892977273_1_alg».proof.Proof.Body

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the five points: the row blocks move with the point, the weights and the bias stay. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 5 :=
  (by decide +kernel : ∀ t : Fin grid0.N, _)

/-- Row p of point t's aggregate block is row 2000·t + p of the aggregate array. -/
theorem agg_block (c : Dev nD) (t : Fin cfg0.N) (p : Fin 2000) (k : Fin 512) (i : Fin 10000) (hi : i.val = t.val * 2000 + p.val) :
    iblk0 V c 0 t (ix2 p k) = V c main_v23 (ix2 i k) := by
  obtain ⟨e0, e1, -⟩ := index_maps t
  show V c main_v23 (((cfg0.win 0).blk t).view.emb (ix2 p k)) = V c main_v23 (ix2 i k)
  refine congrArg _ (funext fun a => Fin.ext ?_)
  match a with
  | ⟨0, _⟩ => show win0_0.index t (0 : Fin 2) * 2000 + 1 * p.val = i.val; omega
  | ⟨1, _⟩ => show win0_0.index t (1 : Fin 2) * 512 + 1 * k.val = k.val; omega

/-- Row p of point t's feature block is row 2000·t + p of the feature array. -/
theorem feat_block (c : Dev nD) (t : Fin cfg0.N) (p : Fin 2000) (k : Fin 512) (i : Fin 10000) (hi : i.val = t.val * 2000 + p.val) :
    iblk0 V c 1 t (ix2 p k) = V c main_v24 (ix2 i k) := by
  obtain ⟨-, -, e0, e1, -⟩ := index_maps t
  show V c main_v24 (((cfg0.win 1).blk t).view.emb (ix2 p k)) = V c main_v24 (ix2 i k)
  refine congrArg _ (funext fun a => Fin.ext ?_)
  match a with
  | ⟨0, _⟩ => show win0_1.index t (0 : Fin 2) * 2000 + 1 * p.val = i.val; omega
  | ⟨1, _⟩ => show win0_1.index t (1 : Fin 2) * 512 + 1 * k.val = k.val; omega

/-- Each weight block is the whole weight array, and the bias block the whole bias row. -/
theorem wl_block (c : Dev nD) (t : Fin cfg0.N) : iblk0 V c 2 t = V c main_v25 := by
  obtain ⟨-, -, -, -, e0, e1, -⟩ := index_maps t
  funext y
  show V c main_v25 (((cfg0.win 2).blk t).view.emb y) = V c main_v25 y
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

theorem wr_block (c : Dev nD) (t : Fin cfg0.N) : iblk0 V c 3 t = V c main_v26 := by
  obtain ⟨-, -, -, -, -, -, e0, e1, -⟩ := index_maps t
  funext y
  show V c main_v26 (((cfg0.win 3).blk t).view.emb y) = V c main_v26 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

theorem bias_block (c : Dev nD) (t : Fin cfg0.N) : iblk0 V c 4 t = V c main_v27 := by
  obtain ⟨-, -, -, -, -, -, -, -, e0, e1, -⟩ := index_maps t
  funext y
  show V c main_v27 (((cfg0.win 4).blk t).view.emb y) = V c main_v27 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

/-- The layer of the entry contents of the region's five input arrays. -/
def whole (c : Dev nD) : S10000x512.Idx → EReal :=
  Cert.Sage.layer (V c main_v23) (V c main_v24) (V c main_v25) (V c main_v26) (V c main_v27)

/-- WHAT POINT t WRITES BACK is block t of the layer of the whole arrays. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero zero_offsets]
  simp only [View.ld_unit_zero (S := S2000x512) zero_offsets, View.ld_unit_zero (S := S512x512) zero_offsets,
    View.ld_unit_zero (S := S1x512) zero_offsets]
  rw [wl_block V c t, wr_block V c t, bias_block V c t]
  rw [Body.layer_tile]
  obtain ⟨-, -, -, -, -, -, -, -, -, -, e0, e1, ht⟩ := index_maps t
  funext j
  obtain ⟨p, q, rfl⟩ : ∃ (p : Fin 2000) (q : Fin 512), j = ix2 p q := ⟨j 0, j 1, eq_ix2 j⟩
  have hp : p.val < 2000 := p.isLt
  have hemb : ((cfg0.win 5).blk t).view.emb (ix2 p q) = ix2 (⟨t.val * 2000 + p.val, by omega⟩ : Fin 10000) q := by
    funext a; apply Fin.ext
    match a with
    | ⟨0, _⟩ => show win0_5.index t (0 : Fin 2) * 2000 + 1 * p.val = t.val * 2000 + p.val; omega
    | ⟨1, _⟩ => show win0_5.index t (1 : Fin 2) * 512 + 1 * q.val = q.val; omega
  show Cert.Sage.layer (iblk0 V c 0 t) (iblk0 V c 1 t) (V c main_v25) (V c main_v26) (V c main_v27) (ix2 p q)
    = whole V c (((cfg0.win 5).blk t).view.emb (ix2 p q))
  rw [hemb]
  exact Cert.Sage.layer_of_rows _ _ _ _ _ _ _ p q _ (fun k => agg_block V c t p k _ rfl) (fun k => feat_block V c t p k _ rfl)

/-- An index of the output array is in point t's block iff its row lies in the block's row range. -/
theorem mem_block (t : Fin cfg0.N) (i : S10000x512.Idx) :
    i ∈ ((cfg0.win 5).blk t).view.set ↔ ∀ a : Fin 2, win0_5.index t a * S2000x512.size a ≤ (i a).val ∧ (i a).val < win0_5.index t a * S2000x512.size a + S2000x512.size a := by
  show i ∈ ((View.whole main_v28).slice (win0_5.rect t)).set ↔ _
  rw [View.set_slice_whole, Rect.mem_set_unit]
  exact Iff.rfl

/-- Every index of the output array lies in the block of the point its row divided by 2000 names. -/
theorem cover (i : S10000x512.Idx) :
    ∃ t : Fin cfg0.N, (cfg0.win 5).flush t = true ∧ i ∈ ((cfg0.win 5).blk t).view.set := by
  have hi0 : (i 0).val < 10000 := idx2_lt0 i
  have hi1 : (i 1).val < 512 := idx2_lt1 i
  have hN : grid0.N = 5 := N_0
  let t : Fin cfg0.N := ⟨(i 0).val / 2000, by show (i 0).val / 2000 < grid0.N; omega⟩
  have htv : t.val = (i 0).val / 2000 := rfl
  obtain ⟨-, -, -, -, -, -, -, -, -, -, e0, e1, -⟩ := index_maps t
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 512 ≤ (i 1).val ∧ (i 1).val < win0_5.index t (1 : Fin 2) * 512 + 512; omega

/-- THE OUTPUT ARRAY AFTER THE REGION is the layer of the entry contents of its input arrays. -/
theorem value (c : Dev nD) : (dat0 V c).arrAt 5 cfg0.N = whole V c :=
  (dat0 V c).arrAt_eq_of_cover 5 (whole V c) (fun t _ => flushed_eq V c t) (cover)

end Cert.KernelIdeal.Region0

end
-- ==== Proof.Region1.lean ====
/-
  Layer 2's tiled region, read as one whole-array function of the arrays it finds on entry.

  The region walks five grid points; point t takes rows 2000·t … 2000·t + 1999 of the aggregate array and of the
  feature array, the whole of both weight arrays and of the bias row, and writes back rows 2000·t … 2000·t + 1999 of
  the output. The five output blocks tile the 10000 rows, and row p of the tile's result is row 2000·t + p of the
  specification's layer of the whole arrays, since a layer's row depends only on that row of the aggregate and of the
  features. So after the region the output array is the layer of the entry contents of its five input arrays.
-/
import proofs.«148625_j86285892977273_1_alg».proof.Proof.Gen.KernelIdeal.Frame
import proofs.«148625_j86285892977273_1_alg».proof.Proof.Body

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the five points: the row blocks move with the point, the weights and the bias stay. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 5 :=
  (by decide +kernel : ∀ t : Fin grid1.N, _)

/-- Row p of point t's aggregate block is row 2000·t + p of the aggregate array. -/
theorem agg_block (c : Dev nD) (t : Fin cfg1.N) (p : Fin 2000) (k : Fin 512) (i : Fin 10000) (hi : i.val = t.val * 2000 + p.val) :
    iblk1 V c 0 t (ix2 p k) = V c main_v49 (ix2 i k) := by
  obtain ⟨e0, e1, -⟩ := index_maps t
  show V c main_v49 (((cfg1.win 0).blk t).view.emb (ix2 p k)) = V c main_v49 (ix2 i k)
  refine congrArg _ (funext fun a => Fin.ext ?_)
  match a with
  | ⟨0, _⟩ => show win1_0.index t (0 : Fin 2) * 2000 + 1 * p.val = i.val; omega
  | ⟨1, _⟩ => show win1_0.index t (1 : Fin 2) * 512 + 1 * k.val = k.val; omega

/-- Row p of point t's feature block is row 2000·t + p of the feature array. -/
theorem feat_block (c : Dev nD) (t : Fin cfg1.N) (p : Fin 2000) (k : Fin 512) (i : Fin 10000) (hi : i.val = t.val * 2000 + p.val) :
    iblk1 V c 1 t (ix2 p k) = V c main_v28 (ix2 i k) := by
  obtain ⟨-, -, e0, e1, -⟩ := index_maps t
  show V c main_v28 (((cfg1.win 1).blk t).view.emb (ix2 p k)) = V c main_v28 (ix2 i k)
  refine congrArg _ (funext fun a => Fin.ext ?_)
  match a with
  | ⟨0, _⟩ => show win1_1.index t (0 : Fin 2) * 2000 + 1 * p.val = i.val; omega
  | ⟨1, _⟩ => show win1_1.index t (1 : Fin 2) * 512 + 1 * k.val = k.val; omega

/-- Each weight block is the whole weight array, and the bias block the whole bias row. -/
theorem wl_block (c : Dev nD) (t : Fin cfg1.N) : iblk1 V c 2 t = V c main_v50 := by
  obtain ⟨-, -, -, -, e0, e1, -⟩ := index_maps t
  funext y
  show V c main_v50 (((cfg1.win 2).blk t).view.emb y) = V c main_v50 y
  refine congrArg _ (funext fun a => Fin.ext ?_)
  match a with
  | ⟨0, _⟩ => show win1_2.index t (0 : Fin 2) * 512 + 1 * (y 0).val = (y 0).val; omega
  | ⟨1, _⟩ => show win1_2.index t (1 : Fin 2) * 512 + 1 * (y 1).val = (y 1).val; omega

theorem wr_block (c : Dev nD) (t : Fin cfg1.N) : iblk1 V c 3 t = V c main_v51 := by
  obtain ⟨-, -, -, -, -, -, e0, e1, -⟩ := index_maps t
  funext y
  show V c main_v51 (((cfg1.win 3).blk t).view.emb y) = V c main_v51 y
  refine congrArg _ (funext fun a => Fin.ext ?_)
  match a with
  | ⟨0, _⟩ => show win1_3.index t (0 : Fin 2) * 512 + 1 * (y 0).val = (y 0).val; omega
  | ⟨1, _⟩ => show win1_3.index t (1 : Fin 2) * 512 + 1 * (y 1).val = (y 1).val; omega

theorem bias_block (c : Dev nD) (t : Fin cfg1.N) : iblk1 V c 4 t = V c main_v52 := by
  obtain ⟨-, -, -, -, -, -, -, -, e0, e1, -⟩ := index_maps t
  funext y
  show V c main_v52 (((cfg1.win 4).blk t).view.emb y) = V c main_v52 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 512 + 1 * (y 1).val = (y 1).val; omega

/-- The layer of the entry contents of the region's five input arrays. -/
def whole (c : Dev nD) : S10000x512.Idx → EReal :=
  Cert.Sage.layer (V c main_v49) (V c main_v28) (V c main_v50) (V c main_v51) (V c main_v52)

/-- WHAT POINT t WRITES BACK is block t of the layer of the whole arrays. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero zero_offsets]
  simp only [View.ld_unit_zero (S := S2000x512) zero_offsets, View.ld_unit_zero (S := S512x512) zero_offsets,
    View.ld_unit_zero (S := S1x512) zero_offsets]
  rw [wl_block V c t, wr_block V c t, bias_block V c t]
  rw [Body.tile1_eq, Body.layer_tile]
  obtain ⟨-, -, -, -, -, -, -, -, -, -, e0, e1, ht⟩ := index_maps t
  funext j
  obtain ⟨p, q, rfl⟩ : ∃ (p : Fin 2000) (q : Fin 512), j = ix2 p q := ⟨j 0, j 1, eq_ix2 j⟩
  have hp : p.val < 2000 := p.isLt
  have hemb : ((cfg1.win 5).blk t).view.emb (ix2 p q) = ix2 (⟨t.val * 2000 + p.val, by omega⟩ : Fin 10000) q := by
    funext a; apply Fin.ext
    match a with
    | ⟨0, _⟩ => show win1_5.index t (0 : Fin 2) * 2000 + 1 * p.val = t.val * 2000 + p.val; omega
    | ⟨1, _⟩ => show win1_5.index t (1 : Fin 2) * 512 + 1 * q.val = q.val; omega
  show Cert.Sage.layer (iblk1 V c 0 t) (iblk1 V c 1 t) (V c main_v50) (V c main_v51) (V c main_v52) (ix2 p q)
    = whole V c (((cfg1.win 5).blk t).view.emb (ix2 p q))
  rw [hemb]
  exact Cert.Sage.layer_of_rows _ _ _ _ _ _ _ p q _ (fun k => agg_block V c t p k _ rfl) (fun k => feat_block V c t p k _ rfl)

/-- An index of the output array is in point t's block iff its row lies in the block's row range. -/
theorem mem_block (t : Fin cfg1.N) (i : S10000x512.Idx) :
    i ∈ ((cfg1.win 5).blk t).view.set ↔ ∀ a : Fin 2, win1_5.index t a * S2000x512.size a ≤ (i a).val ∧ (i a).val < win1_5.index t a * S2000x512.size a + S2000x512.size a := by
  show i ∈ ((View.whole main_v53).slice (win1_5.rect t)).set ↔ _
  rw [View.set_slice_whole, Rect.mem_set_unit]
  exact Iff.rfl

/-- Every index of the output array lies in the block of the point its row divided by 2000 names. -/
theorem cover (i : S10000x512.Idx) :
    ∃ t : Fin cfg1.N, (cfg1.win 5).flush t = true ∧ i ∈ ((cfg1.win 5).blk t).view.set := by
  have hi0 : (i 0).val < 10000 := idx2_lt0 i
  have hi1 : (i 1).val < 512 := idx2_lt1 i
  have hN : grid1.N = 5 := N_1
  let t : Fin cfg1.N := ⟨(i 0).val / 2000, by show (i 0).val / 2000 < grid1.N; omega⟩
  have htv : t.val = (i 0).val / 2000 := rfl
  obtain ⟨-, -, -, -, -, -, -, -, -, -, e0, e1, -⟩ := index_maps t
  refine ⟨t, flush1_5 t, ?_⟩
  rw [mem_block]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 512 ≤ (i 1).val ∧ (i 1).val < win1_5.index t (1 : Fin 2) * 512 + 512; omega

/-- THE OUTPUT ARRAY AFTER THE REGION is the layer of the entry contents of its input arrays. -/
theorem value (c : Dev nD) : (dat1 V c).arrAt 5 cfg1.N = whole V c :=
  (dat1 V c).arrAt_eq_of_cover 5 (whole V c) (fun t _ => flushed_eq V c t) (cover)

end Cert.KernelIdeal.Region1

end
-- ==== Proof.Region2.lean ====
/-
  Layer 3's tiled region, read as one whole-array function of the arrays it finds on entry.

  The region walks five grid points; point t takes rows 2000·t … 2000·t + 1999 of the aggregate array and of the
  feature array, the whole of both weight arrays and of the bias row, and writes back rows 2000·t … 2000·t + 1999 of
  the output. The five output blocks tile the 10000 rows, and row p of the tile's result is row 2000·t + p of the
  specification's layer of the whole arrays, since a layer's row depends only on that row of the aggregate and of the
  features. So after the region the output array is the layer of the entry contents of its five input arrays.
-/
import proofs.«148625_j86285892977273_1_alg».proof.Proof.Gen.KernelIdeal.Frame
import proofs.«148625_j86285892977273_1_alg».proof.Proof.Body

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the five points: the row blocks move with the point, the weights and the bias stay. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 5 :=
  (by decide +kernel : ∀ t : Fin grid2.N, _)

/-- Row p of point t's aggregate block is row 2000·t + p of the aggregate array. -/
theorem agg_block (c : Dev nD) (t : Fin cfg2.N) (p : Fin 2000) (k : Fin 512) (i : Fin 10000) (hi : i.val = t.val * 2000 + p.val) :
    iblk2 V c 0 t (ix2 p k) = V c main_v74 (ix2 i k) := by
  obtain ⟨e0, e1, -⟩ := index_maps t
  show V c main_v74 (((cfg2.win 0).blk t).view.emb (ix2 p k)) = V c main_v74 (ix2 i k)
  refine congrArg _ (funext fun a => Fin.ext ?_)
  match a with
  | ⟨0, _⟩ => show win2_0.index t (0 : Fin 2) * 2000 + 1 * p.val = i.val; omega
  | ⟨1, _⟩ => show win2_0.index t (1 : Fin 2) * 512 + 1 * k.val = k.val; omega

/-- Row p of point t's feature block is row 2000·t + p of the feature array. -/
theorem feat_block (c : Dev nD) (t : Fin cfg2.N) (p : Fin 2000) (k : Fin 512) (i : Fin 10000) (hi : i.val = t.val * 2000 + p.val) :
    iblk2 V c 1 t (ix2 p k) = V c main_v53 (ix2 i k) := by
  obtain ⟨-, -, e0, e1, -⟩ := index_maps t
  show V c main_v53 (((cfg2.win 1).blk t).view.emb (ix2 p k)) = V c main_v53 (ix2 i k)
  refine congrArg _ (funext fun a => Fin.ext ?_)
  match a with
  | ⟨0, _⟩ => show win2_1.index t (0 : Fin 2) * 2000 + 1 * p.val = i.val; omega
  | ⟨1, _⟩ => show win2_1.index t (1 : Fin 2) * 512 + 1 * k.val = k.val; omega

/-- Each weight block is the whole weight array, and the bias block the whole bias row. -/
theorem wl_block (c : Dev nD) (t : Fin cfg2.N) : iblk2 V c 2 t = V c main_v75 := by
  obtain ⟨-, -, -, -, e0, e1, -⟩ := index_maps t
  funext y
  show V c main_v75 (((cfg2.win 2).blk t).view.emb y) = V c main_v75 y
  refine congrArg _ (funext fun a => Fin.ext ?_)
  match a with
  | ⟨0, _⟩ => show win2_2.index t (0 : Fin 2) * 512 + 1 * (y 0).val = (y 0).val; omega
  | ⟨1, _⟩ => show win2_2.index t (1 : Fin 2) * 512 + 1 * (y 1).val = (y 1).val; omega

theorem wr_block (c : Dev nD) (t : Fin cfg2.N) : iblk2 V c 3 t = V c main_v76 := by
  obtain ⟨-, -, -, -, -, -, e0, e1, -⟩ := index_maps t
  funext y
  show V c main_v76 (((cfg2.win 3).blk t).view.emb y) = V c main_v76 y
  refine congrArg _ (funext fun a => Fin.ext ?_)
  match a with
  | ⟨0, _⟩ => show win2_3.index t (0 : Fin 2) * 512 + 1 * (y 0).val = (y 0).val; omega
  | ⟨1, _⟩ => show win2_3.index t (1 : Fin 2) * 512 + 1 * (y 1).val = (y 1).val; omega

theorem bias_block (c : Dev nD) (t : Fin cfg2.N) : iblk2 V c 4 t = V c main_v77 := by
  obtain ⟨-, -, -, -, -, -, -, -, e0, e1, -⟩ := index_maps t
  funext y
  show V c main_v77 (((cfg2.win 4).blk t).view.emb y) = V c main_v77 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 512 + 1 * (y 1).val = (y 1).val; omega

/-- The layer of the entry contents of the region's five input arrays. -/
def whole (c : Dev nD) : S10000x512.Idx → EReal :=
  Cert.Sage.layer (V c main_v74) (V c main_v53) (V c main_v75) (V c main_v76) (V c main_v77)

/-- WHAT POINT t WRITES BACK is block t of the layer of the whole arrays. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero zero_offsets]
  simp only [View.ld_unit_zero (S := S2000x512) zero_offsets, View.ld_unit_zero (S := S512x512) zero_offsets,
    View.ld_unit_zero (S := S1x512) zero_offsets]
  rw [wl_block V c t, wr_block V c t, bias_block V c t]
  rw [Body.tile2_eq, Body.layer_tile]
  obtain ⟨-, -, -, -, -, -, -, -, -, -, e0, e1, ht⟩ := index_maps t
  funext j
  obtain ⟨p, q, rfl⟩ : ∃ (p : Fin 2000) (q : Fin 512), j = ix2 p q := ⟨j 0, j 1, eq_ix2 j⟩
  have hp : p.val < 2000 := p.isLt
  have hemb : ((cfg2.win 5).blk t).view.emb (ix2 p q) = ix2 (⟨t.val * 2000 + p.val, by omega⟩ : Fin 10000) q := by
    funext a; apply Fin.ext
    match a with
    | ⟨0, _⟩ => show win2_5.index t (0 : Fin 2) * 2000 + 1 * p.val = t.val * 2000 + p.val; omega
    | ⟨1, _⟩ => show win2_5.index t (1 : Fin 2) * 512 + 1 * q.val = q.val; omega
  show Cert.Sage.layer (iblk2 V c 0 t) (iblk2 V c 1 t) (V c main_v75) (V c main_v76) (V c main_v77) (ix2 p q)
    = whole V c (((cfg2.win 5).blk t).view.emb (ix2 p q))
  rw [hemb]
  exact Cert.Sage.layer_of_rows _ _ _ _ _ _ _ p q _ (fun k => agg_block V c t p k _ rfl) (fun k => feat_block V c t p k _ rfl)

/-- An index of the output array is in point t's block iff its row lies in the block's row range. -/
theorem mem_block (t : Fin cfg2.N) (i : S10000x512.Idx) :
    i ∈ ((cfg2.win 5).blk t).view.set ↔ ∀ a : Fin 2, win2_5.index t a * S2000x512.size a ≤ (i a).val ∧ (i a).val < win2_5.index t a * S2000x512.size a + S2000x512.size a := by
  show i ∈ ((View.whole main_v78).slice (win2_5.rect t)).set ↔ _
  rw [View.set_slice_whole, Rect.mem_set_unit]
  exact Iff.rfl

/-- Every index of the output array lies in the block of the point its row divided by 2000 names. -/
theorem cover (i : S10000x512.Idx) :
    ∃ t : Fin cfg2.N, (cfg2.win 5).flush t = true ∧ i ∈ ((cfg2.win 5).blk t).view.set := by
  have hi0 : (i 0).val < 10000 := idx2_lt0 i
  have hi1 : (i 1).val < 512 := idx2_lt1 i
  have hN : grid2.N = 5 := N_2
  let t : Fin cfg2.N := ⟨(i 0).val / 2000, by show (i 0).val / 2000 < grid2.N; omega⟩
  have htv : t.val = (i 0).val / 2000 := rfl
  obtain ⟨-, -, -, -, -, -, -, -, -, -, e0, e1, -⟩ := index_maps t
  refine ⟨t, flush2_5 t, ?_⟩
  rw [mem_block]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 512 ≤ (i 1).val ∧ (i 1).val < win2_5.index t (1 : Fin 2) * 512 + 512; omega

/-- THE OUTPUT ARRAY AFTER THE REGION is the layer of the entry contents of its input arrays. -/
theorem value (c : Dev nD) : (dat2 V c).arrAt 5 cfg2.N = whole V c :=
  (dat2 V c).arrAt_eq_of_cover 5 (whole V c) (fun t _ => flushed_eq V c t) (cover)

end Cert.KernelIdeal.Region2

end
-- ==== Proof.Region3.lean ====
/-
  The read-out's tiled region, read as one whole-array function of the arrays it finds on entry.

  The region walks five grid points; point t takes rows 2000·t … 2000·t + 1999 of the third layer's features, the
  whole read-out weight array and the whole bias row, and writes back rows 2000·t … 2000·t + 1999 of the result. The
  five result blocks tile the 10000 rows, and row p of the tile's result is row 2000·t + p of the specification's
  read-out of the whole arrays. So after the region the result array is the read-out of the entry contents of its
  three input arrays.
-/
import proofs.«148625_j86285892977273_1_alg».proof.Proof.Gen.KernelIdeal.Frame
import proofs.«148625_j86285892977273_1_alg».proof.Proof.Body

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the five points: the row blocks move with the point, the weights and the bias stay. -/
theorem index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 5 :=
  (by decide +kernel : ∀ t : Fin grid3.N, _)

/-- Row p of point t's feature block is row 2000·t + p of the feature array. -/
theorem feat_block (c : Dev nD) (t : Fin cfg3.N) (p : Fin 2000) (k : Fin 512) (i : Fin 10000) (hi : i.val = t.val * 2000 + p.val) :
    iblk3 V c 0 t (ix2 p k) = V c main_v78 (ix2 i k) := by
  obtain ⟨e0, e1, -⟩ := index_maps t
  show V c main_v78 (((cfg3.win 0).blk t).view.emb (ix2 p k)) = V c main_v78 (ix2 i k)
  refine congrArg _ (funext fun a => Fin.ext ?_)
  match a with
  | ⟨0, _⟩ => show win3_0.index t (0 : Fin 2) * 2000 + 1 * p.val = i.val; omega
  | ⟨1, _⟩ => show win3_0.index t (1 : Fin 2) * 512 + 1 * k.val = k.val; omega

/-- The weight block is the whole weight array, and the bias block the whole bias row. -/
theorem w_block (c : Dev nD) (t : Fin cfg3.N) : iblk3 V c 1 t = V c main_v79 := by
  obtain ⟨-, -, e0, e1, -⟩ := index_maps t
  funext y
  show V c main_v79 (((cfg3.win 1).blk t).view.emb y) = V c main_v79 y
  refine congrArg _ (funext fun a => Fin.ext ?_)
  match a with
  | ⟨0, _⟩ => show win3_1.index t (0 : Fin 2) * 512 + 1 * (y 0).val = (y 0).val; omega
  | ⟨1, _⟩ => show win3_1.index t (1 : Fin 2) * 128 + 1 * (y 1).val = (y 1).val; omega

theorem bias_block (c : Dev nD) (t : Fin cfg3.N) : iblk3 V c 2 t = V c main_v80 := by
  obtain ⟨-, -, -, -, e0, e1, -⟩ := index_maps t
  funext y
  show V c main_v80 (((cfg3.win 2).blk t).view.emb y) = V c main_v80 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- The read-out of the entry contents of the region's three input arrays. -/
def whole (c : Dev nD) : S10000x128.Idx → EReal :=
  Cert.Sage.readout (V c main_v78) (V c main_v79) (V c main_v80)

/-- WHAT POINT t WRITES BACK is block t of the read-out of the whole arrays. -/
theorem flushed_eq (c : Dev nD) (t : Fin cfg3.N) :
    (dat3 V c).flushed 3 t = ((cfg3.win 3).blk t).view.read (Elt Ideal) (whole V c) := by
  show (cfg3.win 3).cut (grid3.coords t) ((dat3 V c).after 3 t) = _
  rw [after3_3]
  unfold out3_3
  rw [View.canon_unit_zero zero_offsets]
  simp only [View.ld_unit_zero (S := S2000x512) zero_offsets, View.ld_unit_zero (S := S512x128) zero_offsets,
    View.ld_unit_zero (S := S1x128) zero_offsets]
  rw [w_block V c t, bias_block V c t]
  rw [Body.readout_tile]
  obtain ⟨-, -, -, -, -, -, e0, e1, ht⟩ := index_maps t
  funext j
  obtain ⟨p, q, rfl⟩ : ∃ (p : Fin 2000) (q : Fin 128), j = ix2 p q := ⟨j 0, j 1, eq_ix2 j⟩
  have hp : p.val < 2000 := p.isLt
  have hemb : ((cfg3.win 3).blk t).view.emb (ix2 p q) = ix2 (⟨t.val * 2000 + p.val, by omega⟩ : Fin 10000) q := by
    funext a; apply Fin.ext
    match a with
    | ⟨0, _⟩ => show win3_3.index t (0 : Fin 2) * 2000 + 1 * p.val = t.val * 2000 + p.val; omega
    | ⟨1, _⟩ => show win3_3.index t (1 : Fin 2) * 128 + 1 * q.val = q.val; omega
  show Cert.Sage.readout (iblk3 V c 0 t) (V c main_v79) (V c main_v80) (ix2 p q)
    = whole V c (((cfg3.win 3).blk t).view.emb (ix2 p q))
  rw [hemb]
  exact Cert.Sage.readout_of_rows _ _ _ _ p q _ (fun k => feat_block V c t p k _ rfl)

/-- An index of the result array is in point t's block iff its row lies in the block's row range. -/
theorem mem_block (t : Fin cfg3.N) (i : S10000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v81).slice (win3_3.rect t)).set ↔ _
  rw [View.set_slice_whole, Rect.mem_set_unit]
  exact Iff.rfl

/-- Every index of the result array lies in the block of the point its row divided by 2000 names. -/
theorem cover (i : S10000x128.Idx) :
    ∃ t : Fin cfg3.N, (cfg3.win 3).flush t = true ∧ i ∈ ((cfg3.win 3).blk t).view.set := by
  have hi0 : (i 0).val < 10000 := idx2_lt0 i
  have hi1 : (i 1).val < 128 := idx2_lt1 i
  have hN : grid3.N = 5 := N_3
  let t : Fin cfg3.N := ⟨(i 0).val / 2000, by show (i 0).val / 2000 < grid3.N; omega⟩
  have htv : t.val = (i 0).val / 2000 := rfl
  obtain ⟨-, -, -, -, -, -, e0, e1, -⟩ := index_maps t
  refine ⟨t, flush3_3 t, ?_⟩
  rw [mem_block]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

/-- THE RESULT ARRAY AFTER THE REGION is the read-out of the entry contents of its input arrays. -/
theorem value (c : Dev nD) : (dat3 V c).arrAt 3 cfg3.N = whole V c :=
  (dat3 V c).arrAt_eq_of_cover 3 (whole V c) (fun t _ => flushed_eq V c t) (cover)

end Cert.KernelIdeal.Region3

end
-- ==== Proof.KerAgg.lean ====
/-
  The mean of the neighbours' feature rows, as the kernel's program computes it on the host before each layer.

  From the edge list, `s` holds each edge's source node and `d` its destination node (32-bit words). A negative
  source word is wrapped once by the number of nodes. The rows of the feature array X at the sources are gathered, and
  added up into the row of each edge's destination, starting from zeros (an edge whose destination word is not a node
  number adds nothing). The degree of a node is the same accumulation of ones. The aggregate is the sum of rows divided,
  entry by entry, by the larger of the degree and one.
-/
import proofs.«148625_j86285892977273_1_alg».proof.Proof.Gen.KernelIdeal
import Idealize.ShloMosaic.PureOps.Ideal

noncomputable section

namespace Cert.KernelIdeal.Agg

open Cert.KernelIdeal Cert.KernelIdeal.Facts₀ Idealize.ShloMosaic

/-- The source words with negative ones wrapped, as a column of start indices. -/
def srcIdx (s : IVec S160000 32) : IVec S160000x1 32 :=
  broadcastInDim S160000x1 ![0] bcast_S160000_S160000x1_0
    (select (cmpi .slt s (broadcastInDim S160000 ![] bcast_S_S160000 (constantI S_ 32 0#32)))
      (addi s (broadcastInDim S160000 ![] bcast_S_S160000 (constantI S_ 32 10000#32))) s)

/-- The destination words as a column of scatter indices. -/
def dstIdx (d : IVec S160000 32) : IVec S160000x1 32 :=
  broadcastInDim S160000x1 ![0] bcast_S160000_S160000x1_0 d

/-- The rows of X at the sources, added up per destination. -/
def nbrSum (X : FVec Ideal S10000x512 .f32) (s d : IVec S160000 32) : FVec Ideal S10000x512 .f32 :=
  Host.scatterAdd scatter_S10000x512_S160000x1_S160000x512_1_0_0_1
    (broadcastInDim S10000x512 ![] bcast_S_S10000x512 (constant (F := Ideal) S_ .f32 0x00000000#32)) (dstIdx d)
    (Host.gather gather_S10000x512_S160000x1_S160000x512_1_0_n_n_0_1_1512 X (srcIdx s))

/-- The number of edges into each node, floored at one. -/
def degree (d : IVec S160000 32) : FVec Ideal S10000 .f32 :=
  maximumf
    (Host.scatterAdd scatter_S10000_S160000x1_S160000_n_0_0_1
      (broadcastInDim S10000 ![] bcast_S_S10000 (constant (F := Ideal) S_ .f32 0x00000000#32)) (dstIdx d)
      (broadcastInDim S160000 ![] bcast_S_S160000 (constant (F := Ideal) S_ .f32 0x3F800000#32)))
    (broadcastInDim S10000 ![] bcast_S_S10000 (constant (F := Ideal) S_ .f32 0x3F800000#32))

/-- The floored degree of a row, repeated along the row. -/
def denom (d : IVec S160000 32) : FVec Ideal S10000x512 .f32 :=
  broadcastInDim S10000x512 ![0, 1] bcast_S10000x1_S10000x512_0_1
    (broadcastInDim S10000x1 ![0] bcast_S10000_S10000x1_0 (degree d))

/-- The mean of the neighbours' rows. -/
def meanAgg (X : FVec Ideal S10000x512 .f32) (s d : IVec S160000 32) : FVec Ideal S10000x512 .f32 :=
  Host.divf (nbrSum X s d) (denom d)

/-- The edge list's first row: the source words. -/
def srcOf (ei : IVec S2x160000 32) : IVec S160000 32 :=
  shapeCast S160000 (extractStridedSlice S1x160000 ![0, 0] ei slices_S2x160000_S1x160000_0_0) shapeCasts_S1x160000_S160000

/-- The edge list's second row: the destination words. -/
def dstOf (ei : IVec S2x160000 32) : IVec S160000 32 :=
  shapeCast S160000 (extractStridedSlice S1x160000 ![1, 0] ei slices_S2x160000_S1x160000_1_0) shapeCasts_S1x160000_S160000

end Cert.KernelIdeal.Agg

end
-- ==== Proof.KerSpec.lean ====
/-
  The whole network as ONE function of the thirteen argument arrays, in the kernel program's arrangement.

  A layer takes the current node features H, averages the neighbours' rows of H over the edge list, and returns
  max((avg·Wl + H·Wr) + b, 0), the bias vector b laid out as a one-row array. Three layers follow one another from
  the input features, each with its own weights and bias, over the same edge list; the result is the linear read-out
  of the third layer's features, H₃·W + b.
-/
import proofs.«148625_j86285892977273_1_alg».proof.Proof.KerAgg
import proofs.«148625_j86285892977273_1_alg».proof.Proof.Spec

noncomputable section

namespace Cert.KernelIdeal.Agg

open Cert.KernelIdeal Cert.KernelIdeal.Facts₀ Idealize.ShloMosaic

/-- A bias vector of length 512 laid out as a one-row array. -/
def row512 (b : FVec Ideal S512 .f32) : FVec Ideal S1x512 .f32 := shapeCast S1x512 b shapeCasts_S512_S1x512

/-- A bias vector of length 128 laid out as a one-row array. -/
def row128 (b : FVec Ideal S128 .f32) : FVec Ideal S1x128 .f32 := shapeCast S1x128 b shapeCasts_S128_S1x128

/-- One layer: the specification's layer of the neighbours' mean, the features, the two weight arrays and the bias row. -/
def sageLayer (H : FVec Ideal S10000x512 .f32) (s d : IVec S160000 32) (Wl : FVec Ideal S512x512 .f32)
    (b : FVec Ideal S512 .f32) (Wr : FVec Ideal S512x512 .f32) : FVec Ideal S10000x512 .f32 :=
  Cert.Sage.layer (meanAgg H s d) H Wl Wr (row512 b)

/-- The network: three layers over one edge list, then the read-out. -/
def network (X : FVec Ideal S10000x512 .f32) (ei : IVec S2x160000 32)
    (Wl0 : FVec Ideal S512x512 .f32) (b0 : FVec Ideal S512 .f32) (Wr0 : FVec Ideal S512x512 .f32)
    (Wl1 : FVec Ideal S512x512 .f32) (b1 : FVec Ideal S512 .f32) (Wr1 : FVec Ideal S512x512 .f32)
    (Wl2 : FVec Ideal S512x512 .f32) (b2 : FVec Ideal S512 .f32) (Wr2 : FVec Ideal S512x512 .f32)
    (Wo : FVec Ideal S512x128 .f32) (bo : FVec Ideal S128 .f32) : FVec Ideal S10000x128 .f32 :=
  Cert.Sage.readout
    (sageLayer (sageLayer (sageLayer X (srcOf ei) (dstOf ei) Wl0 b0 Wr0) (srcOf ei) (dstOf ei) Wl1 b1 Wr1)
      (srcOf ei) (dstOf ei) Wl2 b2 Wr2)
    Wo (row128 bo)

end Cert.KernelIdeal.Agg

end
-- ==== Proof.Stretch0.lean ====
/-
  The host operations before the first layer's region, read at the buffers the later steps use, from any buffer
  contents U on entry.

  They split the edge list into its source and destination words, compute the mean of the neighbours' input features,
  narrow the features and the first layer's weights to the tile format (the identity on extended reals), and lay the
  first bias vector out as a row. Every other argument array is left as it was.
-/
import proofs.«148625_j86285892977273_1_alg».proof.Proof.Gen.KernelIdeal.Launch
import proofs.«148625_j86285892977273_1_alg».proof.Proof.KerSpec
import Idealize.ShloMosaic.Lib.StableHlo.Run

set_option maxRecDepth 16384

noncomputable section

namespace Cert.KernelIdeal.Stretch0

open Cert.KernelIdeal Cert.KernelIdeal.Gen Idealize.ShloMosaic Idealize.ShloMosaic.TcCoe Idealize.ShloMosaic.StableHlo

variable (U : Valuation τ sig (Elt Ideal))

/-- The source words and the destination words of the edge list. -/
theorem src : StableHlo.after hostOps0 U (Proc.devRef .tc main_v1) = Agg.srcOf (U (Proc.devRef .tc main_arg1)) := by
  after_results_simp; rfl
theorem dst : StableHlo.after hostOps0 U (Proc.devRef .tc main_v3) = Agg.dstOf (U (Proc.devRef .tc main_arg1)) := by
  after_results_simp; rfl

/-- The mean of the neighbours' input features. -/
theorem agg : StableHlo.after hostOps0 U (Proc.devRef .tc main_v23)
    = Agg.meanAgg (U (Proc.devRef .tc main_arg0)) (Agg.srcOf (U (Proc.devRef .tc main_arg1))) (Agg.dstOf (U (Proc.devRef .tc main_arg1))) := by
  after_results_simp; rfl

/-- The features and the first layer's weights in the tile format, and its bias as a row. -/
theorem feat : StableHlo.after hostOps0 U (Proc.devRef .tc main_v24) = U (Proc.devRef .tc main_arg0) := by
  after_results_simp; rfl
theorem wl : StableHlo.after hostOps0 U (Proc.devRef .tc main_v25) = U (Proc.devRef .tc main_arg2) := by
  after_results_simp; rfl
theorem wr : StableHlo.after hostOps0 U (Proc.devRef .tc main_v26) = U (Proc.devRef .tc main_arg4) := by
  after_results_simp; rfl
theorem bias : StableHlo.after hostOps0 U (Proc.devRef .tc main_v27) = Agg.row512 (U (Proc.devRef .tc main_arg3)) := by
  after_results_simp; rfl

/-- The later layers' arguments are not written. -/
theorem keep_main_arg5 : StableHlo.after hostOps0 U (Proc.devRef .tc main_arg5) = U (Proc.devRef .tc main_arg5) := by
  after_results_simp
theorem keep_main_arg6 : StableHlo.after hostOps0 U (Proc.devRef .tc main_arg6) = U (Proc.devRef .tc main_arg6) := by
  after_results_simp
theorem keep_main_arg7 : StableHlo.after hostOps0 U (Proc.devRef .tc main_arg7) = U (Proc.devRef .tc main_arg7) := by
  after_results_simp
theorem keep_main_arg8 : StableHlo.after hostOps0 U (Proc.devRef .tc main_arg8) = U (Proc.devRef .tc main_arg8) := by
  after_results_simp
theorem keep_main_arg9 : StableHlo.after hostOps0 U (Proc.devRef .tc main_arg9) = U (Proc.devRef .tc main_arg9) := by
  after_results_simp
theorem keep_main_arg10 : StableHlo.after hostOps0 U (Proc.devRef .tc main_arg10) = U (Proc.devRef .tc main_arg10) := by
  after_results_simp
theorem keep_main_arg11 : StableHlo.after hostOps0 U (Proc.devRef .tc main_arg11) = U (Proc.devRef .tc main_arg11) := by
  after_results_simp
theorem keep_main_arg12 : StableHlo.after hostOps0 U (Proc.devRef .tc main_arg12) = U (Proc.devRef .tc main_arg12) := by
  after_results_simp

end Cert.KernelIdeal.Stretch0

end
-- ==== Proof.Stretch1.lean ====
/-
  The host operations between the first and the second layer's regions, read at the buffers the later steps use, from
  any buffer contents U on entry.

  They widen the first layer's output (the identity on extended reals), compute the mean of its neighbours' rows over
  the same source and destination words, narrow the second layer's weights and lay its bias out as a row. The first
  layer's output, the edge words and the later layers' arguments are left as they were.
-/
import proofs.«148625_j86285892977273_1_alg».proof.Proof.Gen.KernelIdeal.Launch
import proofs.«148625_j86285892977273_1_alg».proof.Proof.KerSpec
import Idealize.ShloMosaic.Lib.StableHlo.Run

set_option maxRecDepth 16384

noncomputable section

namespace Cert.KernelIdeal.Stretch1

open Cert.KernelIdeal Cert.KernelIdeal.Gen Idealize.ShloMosaic Idealize.ShloMosaic.TcCoe Idealize.ShloMosaic.StableHlo

variable (U : Valuation τ sig (Elt Ideal))

/-- The mean of the neighbours' rows of the first layer's output. -/
theorem agg : StableHlo.after hostOps1 U (Proc.devRef .tc main_v49)
    = Agg.meanAgg (U (Proc.devRef .tc main_v28)) (U (Proc.devRef .tc main_v1)) (U (Proc.devRef .tc main_v3)) := by
  after_results_simp; rfl

theorem wl : StableHlo.after hostOps1 U (Proc.devRef .tc main_v50) = U (Proc.devRef .tc main_arg5) := by
  after_results_simp; rfl
theorem wr : StableHlo.after hostOps1 U (Proc.devRef .tc main_v51) = U (Proc.devRef .tc main_arg7) := by
  after_results_simp; rfl
theorem bias : StableHlo.after hostOps1 U (Proc.devRef .tc main_v52) = Agg.row512 (U (Proc.devRef .tc main_arg6)) := by
  after_results_simp; rfl

theorem keep_main_v28 : StableHlo.after hostOps1 U (Proc.devRef .tc main_v28) = U (Proc.devRef .tc main_v28) := by
  after_results_simp
theorem keep_main_v1 : StableHlo.after hostOps1 U (Proc.devRef .tc main_v1) = U (Proc.devRef .tc main_v1) := by
  after_results_simp
theorem keep_main_v3 : StableHlo.after hostOps1 U (Proc.devRef .tc main_v3) = U (Proc.devRef .tc main_v3) := by
  after_results_simp
theorem keep_main_arg8 : StableHlo.after hostOps1 U (Proc.devRef .tc main_arg8) = U (Proc.devRef .tc main_arg8) := by
  after_results_simp
theorem keep_main_arg9 : StableHlo.after hostOps1 U (Proc.devRef .tc main_arg9) = U (Proc.devRef .tc main_arg9) := by
  after_results_simp
theorem keep_main_arg10 : StableHlo.after hostOps1 U (Proc.devRef .tc main_arg10) = U (Proc.devRef .tc main_arg10) := by
  after_results_simp
theorem keep_main_arg11 : StableHlo.after hostOps1 U (Proc.devRef .tc main_arg11) = U (Proc.devRef .tc main_arg11) := by
  after_results_simp
theorem keep_main_arg12 : StableHlo.after hostOps1 U (Proc.devRef .tc main_arg12) = U (Proc.devRef .tc main_arg12) := by
  after_results_simp

end Cert.KernelIdeal.Stretch1

end
-- ==== Proof.Stretch2.lean ====
/-
  The host operations between the second and the third layer's regions, and the two before the read-out region, read
  at the buffers the later steps use, from any buffer contents U on entry.

  The first stretch computes the mean of the neighbours' rows of the second layer's output, narrows the third layer's
  weights and lays its bias out as a row; the second narrows the read-out weights and lays the read-out bias out as a
  row. The layers' outputs and the read-out's arguments are otherwise left as they were.
-/
import proofs.«148625_j86285892977273_1_alg».proof.Proof.Gen.KernelIdeal.Launch
import proofs.«148625_j86285892977273_1_alg».proof.Proof.KerSpec
import Idealize.ShloMosaic.Lib.StableHlo.Run

set_option maxRecDepth 16384

noncomputable section

namespace Cert.KernelIdeal.Stretch2

open Cert.KernelIdeal Cert.KernelIdeal.Gen Idealize.ShloMosaic Idealize.ShloMosaic.TcCoe Idealize.ShloMosaic.StableHlo

variable (U : Valuation τ sig (Elt Ideal))

/-- The mean of the neighbours' rows of the second layer's output. -/
theorem agg : StableHlo.after hostOps2 U (Proc.devRef .tc main_v74)
    = Agg.meanAgg (U (Proc.devRef .tc main_v53)) (U (Proc.devRef .tc main_v1)) (U (Proc.devRef .tc main_v3)) := by
  after_results_simp; rfl

theorem wl : StableHlo.after hostOps2 U (Proc.devRef .tc main_v75) = U (Proc.devRef .tc main_arg8) := by
  after_results_simp; rfl
theorem wr : StableHlo.after hostOps2 U (Proc.devRef .tc main_v76) = U (Proc.devRef .tc main_arg10) := by
  after_results_simp; rfl
theorem bias : StableHlo.after hostOps2 U (Proc.devRef .tc main_v77) = Agg.row512 (U (Proc.devRef .tc main_arg9)) := by
  after_results_simp; rfl

theorem keep_main_v53 : StableHlo.after hostOps2 U (Proc.devRef .tc main_v53) = U (Proc.devRef .tc main_v53) := by
  after_results_simp
theorem keep_main_arg11 : StableHlo.after hostOps2 U (Proc.devRef .tc main_arg11) = U (Proc.devRef .tc main_arg11) := by
  after_results_simp
theorem keep_main_arg12 : StableHlo.after hostOps2 U (Proc.devRef .tc main_arg12) = U (Proc.devRef .tc main_arg12) := by
  after_results_simp

/-- Before the read-out region: its weights in the tile format and its bias as a row. -/
theorem out_w : StableHlo.after hostOps3 U (Proc.devRef .tc main_v79) = U (Proc.devRef .tc main_arg11) := by
  after_results_simp; rfl
theorem out_bias : StableHlo.after hostOps3 U (Proc.devRef .tc main_v80) = Agg.row128 (U (Proc.devRef .tc main_arg12)) := by
  after_results_simp; rfl
theorem out_feat : StableHlo.after hostOps3 U (Proc.devRef .tc main_v78) = U (Proc.devRef .tc main_v78) := by
  after_results_simp

end Cert.KernelIdeal.Stretch2

end
-- ==== Proof.KerValue.lean ====
/-
  The kernel program's result array as the network of the launch arguments.

  The buffer contents are followed from the launch through the program in order. The first stretch of host operations
  leaves the edge list's source and destination words, the mean of the neighbours' input rows, and the first layer's
  operands; the first region leaves the first layer of them; each later stretch averages the previous layer's output
  over the same words and prepares the next layer's operands, and each later region leaves that layer; the last stretch
  prepares the read-out's operands and the last region leaves the read-out. A stretch writes only its own results and a
  region only its output array, so the words and the later layers' arguments reach the place where they are read as the
  launch left them. Composed, the result array is the network of the thirteen launch arguments.
-/
import proofs.«148625_j86285892977273_1_alg».proof.Proof.Gen.KernelIdeal.Frame
import proofs.«148625_j86285892977273_1_alg».proof.Proof.Region0
import proofs.«148625_j86285892977273_1_alg».proof.Proof.Region1
import proofs.«148625_j86285892977273_1_alg».proof.Proof.Region2
import proofs.«148625_j86285892977273_1_alg».proof.Proof.Region3
import proofs.«148625_j86285892977273_1_alg».proof.Proof.Stretch0
import proofs.«148625_j86285892977273_1_alg».proof.Proof.Stretch1
import proofs.«148625_j86285892977273_1_alg».proof.Proof.Stretch2
import proofs.«148625_j86285892977273_1_alg».proof.Proof.KerSpec

set_option maxRecDepth 16384

noncomputable section

namespace Cert.KernelIdeal.KerValue

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg) (c : Dev nD)

/-! ## After the first stretch -/

theorem src1 : W1 m ρ c (Proc.devRef .tc main_v1) = (Agg.srcOf (m ((c : Thread nD τ).loc main_arg1))) := Stretch0.src (W0 m ρ c)
theorem dst1 : W1 m ρ c (Proc.devRef .tc main_v3) = (Agg.dstOf (m ((c : Thread nD τ).loc main_arg1))) := Stretch0.dst (W0 m ρ c)
theorem arg1_5 : W1 m ρ c (Proc.devRef .tc main_arg5) = (m ((c : Thread nD τ).loc main_arg5)) := Stretch0.keep_main_arg5 (W0 m ρ c)
theorem arg1_6 : W1 m ρ c (Proc.devRef .tc main_arg6) = (m ((c : Thread nD τ).loc main_arg6)) := Stretch0.keep_main_arg6 (W0 m ρ c)
theorem arg1_7 : W1 m ρ c (Proc.devRef .tc main_arg7) = (m ((c : Thread nD τ).loc main_arg7)) := Stretch0.keep_main_arg7 (W0 m ρ c)
theorem arg1_8 : W1 m ρ c (Proc.devRef .tc main_arg8) = (m ((c : Thread nD τ).loc main_arg8)) := Stretch0.keep_main_arg8 (W0 m ρ c)
theorem arg1_9 : W1 m ρ c (Proc.devRef .tc main_arg9) = (m ((c : Thread nD τ).loc main_arg9)) := Stretch0.keep_main_arg9 (W0 m ρ c)
theorem arg1_10 : W1 m ρ c (Proc.devRef .tc main_arg10) = (m ((c : Thread nD τ).loc main_arg10)) := Stretch0.keep_main_arg10 (W0 m ρ c)
theorem arg1_11 : W1 m ρ c (Proc.devRef .tc main_arg11) = (m ((c : Thread nD τ).loc main_arg11)) := Stretch0.keep_main_arg11 (W0 m ρ c)
theorem arg1_12 : W1 m ρ c (Proc.devRef .tc main_arg12) = (m ((c : Thread nD τ).loc main_arg12)) := Stretch0.keep_main_arg12 (W0 m ρ c)

/-! ## After the first region -/

/-- The first region leaves the first layer. -/
theorem out2 : W2 m ρ c (Proc.devRef .tc main_v28) = (Agg.sageLayer (m ((c : Thread nD τ).loc main_arg0)) (Agg.srcOf (m ((c : Thread nD τ).loc main_arg1))) (Agg.dstOf (m ((c : Thread nD τ).loc main_arg1))) (m ((c : Thread nD τ).loc main_arg2)) (m ((c : Thread nD τ).loc main_arg3)) (m ((c : Thread nD τ).loc main_arg4))) := by
  refine (W2_arr m ρ c 5).trans ((Region0.value (V1 m ρ) c).trans ?_)
  show Cert.Sage.layer (V1 m ρ c main_v23) (V1 m ρ c main_v24) (V1 m ρ c main_v25) (V1 m ρ c main_v26) (V1 m ρ c main_v27) = _
  rw [show V1 m ρ c main_v23 = Agg.meanAgg (m ((c : Thread nD τ).loc main_arg0)) (Agg.srcOf (m ((c : Thread nD τ).loc main_arg1))) (Agg.dstOf (m ((c : Thread nD τ).loc main_arg1))) from Stretch0.agg (W0 m ρ c),
    show V1 m ρ c main_v24 = (m ((c : Thread nD τ).loc main_arg0)) from Stretch0.feat (W0 m ρ c),
    show V1 m ρ c main_v25 = (m ((c : Thread nD τ).loc main_arg2)) from Stretch0.wl (W0 m ρ c),
    show V1 m ρ c main_v26 = (m ((c : Thread nD τ).loc main_arg4)) from Stretch0.wr (W0 m ρ c),
    show V1 m ρ c main_v27 = Agg.row512 (m ((c : Thread nD τ).loc main_arg3)) from Stretch0.bias (W0 m ρ c)]
  rfl
theorem src2 : W2 m ρ c (Proc.devRef .tc main_v1) = (Agg.srcOf (m ((c : Thread nD τ).loc main_arg1))) := (W2_of_ne m ρ c main_v1 (by decide)).trans (src1 m ρ c)
theorem dst2 : W2 m ρ c (Proc.devRef .tc main_v3) = (Agg.dstOf (m ((c : Thread nD τ).loc main_arg1))) := (W2_of_ne m ρ c main_v3 (by decide)).trans (dst1 m ρ c)
theorem arg2_5 : W2 m ρ c (Proc.devRef .tc main_arg5) = (m ((c : Thread nD τ).loc main_arg5)) := (W2_of_ne m ρ c main_arg5 (by decide)).trans (arg1_5 m ρ c)
theorem arg2_6 : W2 m ρ c (Proc.devRef .tc main_arg6) = (m ((c : Thread nD τ).loc main_arg6)) := (W2_of_ne m ρ c main_arg6 (by decide)).trans (arg1_6 m ρ c)
theorem arg2_7 : W2 m ρ c (Proc.devRef .tc main_arg7) = (m ((c : Thread nD τ).loc main_arg7)) := (W2_of_ne m ρ c main_arg7 (by decide)).trans (arg1_7 m ρ c)
theorem arg2_8 : W2 m ρ c (Proc.devRef .tc main_arg8) = (m ((c : Thread nD τ).loc main_arg8)) := (W2_of_ne m ρ c main_arg8 (by decide)).trans (arg1_8 m ρ c)
theorem arg2_9 : W2 m ρ c (Proc.devRef .tc main_arg9) = (m ((c : Thread nD τ).loc main_arg9)) := (W2_of_ne m ρ c main_arg9 (by decide)).trans (arg1_9 m ρ c)
theorem arg2_10 : W2 m ρ c (Proc.devRef .tc main_arg10) = (m ((c : Thread nD τ).loc main_arg10)) := (W2_of_ne m ρ c main_arg10 (by decide)).trans (arg1_10 m ρ c)
theorem arg2_11 : W2 m ρ c (Proc.devRef .tc main_arg11) = (m ((c : Thread nD τ).loc main_arg11)) := (W2_of_ne m ρ c main_arg11 (by decide)).trans (arg1_11 m ρ c)
theorem arg2_12 : W2 m ρ c (Proc.devRef .tc main_arg12) = (m ((c : Thread nD τ).loc main_arg12)) := (W2_of_ne m ρ c main_arg12 (by decide)).trans (arg1_12 m ρ c)

/-! ## After the second stretch -/

theorem agg3 : V3 m ρ c main_v49 = Agg.meanAgg (Agg.sageLayer (m ((c : Thread nD τ).loc main_arg0)) (Agg.srcOf (m ((c : Thread nD τ).loc main_arg1))) (Agg.dstOf (m ((c : Thread nD τ).loc main_arg1))) (m ((c : Thread nD τ).loc main_arg2)) (m ((c : Thread nD τ).loc main_arg3)) (m ((c : Thread nD τ).loc main_arg4))) (Agg.srcOf (m ((c : Thread nD τ).loc main_arg1))) (Agg.dstOf (m ((c : Thread nD τ).loc main_arg1))) :=
  (Stretch1.agg (W2 m ρ c)).trans (by rw [out2 m ρ c, src2 m ρ c, dst2 m ρ c])
theorem feat3 : V3 m ρ c main_v28 = (Agg.sageLayer (m ((c : Thread nD τ).loc main_arg0)) (Agg.srcOf (m ((c : Thread nD τ).loc main_arg1))) (Agg.dstOf (m ((c : Thread nD τ).loc main_arg1))) (m ((c : Thread nD τ).loc main_arg2)) (m ((c : Thread nD τ).loc main_arg3)) (m ((c : Thread nD τ).loc main_arg4))) := (Stretch1.keep_main_v28 (W2 m ρ c)).trans (out2 m ρ c)
theorem wl3 : V3 m ρ c main_v50 = (m ((c : Thread nD τ).loc main_arg5)) := (Stretch1.wl (W2 m ρ c)).trans (arg2_5 m ρ c)
theorem wr3 : V3 m ρ c main_v51 = (m ((c : Thread nD τ).loc main_arg7)) := (Stretch1.wr (W2 m ρ c)).trans (arg2_7 m ρ c)
theorem bias3 : V3 m ρ c main_v52 = Agg.row512 (m ((c : Thread nD τ).loc main_arg6)) := (Stretch1.bias (W2 m ρ c)).trans (congrArg Agg.row512 (arg2_6 m ρ c))
theorem src3 : W3 m ρ c (Proc.devRef .tc main_v1) = (Agg.srcOf (m ((c : Thread nD τ).loc main_arg1))) := (Stretch1.keep_main_v1 (W2 m ρ c)).trans (src2 m ρ c)
theorem dst3 : W3 m ρ c (Proc.devRef .tc main_v3) = (Agg.dstOf (m ((c : Thread nD τ).loc main_arg1))) := (Stretch1.keep_main_v3 (W2 m ρ c)).trans (dst2 m ρ c)
theorem arg3_8 : W3 m ρ c (Proc.devRef .tc main_arg8) = (m ((c : Thread nD τ).loc main_arg8)) := (Stretch1.keep_main_arg8 (W2 m ρ c)).trans (arg2_8 m ρ c)
theorem arg3_9 : W3 m ρ c (Proc.devRef .tc main_arg9) = (m ((c : Thread nD τ).loc main_arg9)) := (Stretch1.keep_main_arg9 (W2 m ρ c)).trans (arg2_9 m ρ c)
theorem arg3_10 : W3 m ρ c (Proc.devRef .tc main_arg10) = (m ((c : Thread nD τ).loc main_arg10)) := (Stretch1.keep_main_arg10 (W2 m ρ c)).trans (arg2_10 m ρ c)
theorem arg3_11 : W3 m ρ c (Proc.devRef .tc main_arg11) = (m ((c : Thread nD τ).loc main_arg11)) := (Stretch1.keep_main_arg11 (W2 m ρ c)).trans (arg2_11 m ρ c)
theorem arg3_12 : W3 m ρ c (Proc.devRef .tc main_arg12) = (m ((c : Thread nD τ).loc main_arg12)) := (Stretch1.keep_main_arg12 (W2 m ρ c)).trans (arg2_12 m ρ c)

/-! ## After the second region -/

/-- The second region leaves the second layer. -/
theorem out4 : W4 m ρ c (Proc.devRef .tc main_v53) = (Agg.sageLayer (Agg.sageLayer (m ((c : Thread nD τ).loc main_arg0)) (Agg.srcOf (m ((c : Thread nD τ).loc main_arg1))) (Agg.dstOf (m ((c : Thread nD τ).loc main_arg1))) (m ((c : Thread nD τ).loc main_arg2)) (m ((c : Thread nD τ).loc main_arg3)) (m ((c : Thread nD τ).loc main_arg4))) (Agg.srcOf (m ((c : Thread nD τ).loc main_arg1))) (Agg.dstOf (m ((c : Thread nD τ).loc main_arg1))) (m ((c : Thread nD τ).loc main_arg5)) (m ((c : Thread nD τ).loc main_arg6)) (m ((c : Thread nD τ).loc main_arg7))) := by
  refine (W4_arr m ρ c 5).trans ((Region1.value (V3 m ρ) c).trans ?_)
  show Cert.Sage.layer (V3 m ρ c main_v49) (V3 m ρ c main_v28) (V3 m ρ c main_v50) (V3 m ρ c main_v51) (V3 m ρ c main_v52) = _
  rw [agg3 m ρ c, feat3 m ρ c, wl3 m ρ c, wr3 m ρ c, bias3 m ρ c]
  rfl
theorem src4 : W4 m ρ c (Proc.devRef .tc main_v1) = (Agg.srcOf (m ((c : Thread nD τ).loc main_arg1))) := (W4_of_ne m ρ c main_v1 (by decide)).trans (src3 m ρ c)
theorem dst4 : W4 m ρ c (Proc.devRef .tc main_v3) = (Agg.dstOf (m ((c : Thread nD τ).loc main_arg1))) := (W4_of_ne m ρ c main_v3 (by decide)).trans (dst3 m ρ c)
theorem arg4_8 : W4 m ρ c (Proc.devRef .tc main_arg8) = (m ((c : Thread nD τ).loc main_arg8)) := (W4_of_ne m ρ c main_arg8 (by decide)).trans (arg3_8 m ρ c)
theorem arg4_9 : W4 m ρ c (Proc.devRef .tc main_arg9) = (m ((c : Thread nD τ).loc main_arg9)) := (W4_of_ne m ρ c main_arg9 (by decide)).trans (arg3_9 m ρ c)
theorem arg4_10 : W4 m ρ c (Proc.devRef .tc main_arg10) = (m ((c : Thread nD τ).loc main_arg10)) := (W4_of_ne m ρ c main_arg10 (by decide)).trans (arg3_10 m ρ c)
theorem arg4_11 : W4 m ρ c (Proc.devRef .tc main_arg11) = (m ((c : Thread nD τ).loc main_arg11)) := (W4_of_ne m ρ c main_arg11 (by decide)).trans (arg3_11 m ρ c)
theorem arg4_12 : W4 m ρ c (Proc.devRef .tc main_arg12) = (m ((c : Thread nD τ).loc main_arg12)) := (W4_of_ne m ρ c main_arg12 (by decide)).trans (arg3_12 m ρ c)

/-! ## After the third stretch -/

theorem agg5 : V5 m ρ c main_v74 = Agg.meanAgg (Agg.sageLayer (Agg.sageLayer (m ((c : Thread nD τ).loc main_arg0)) (Agg.srcOf (m ((c : Thread nD τ).loc main_arg1))) (Agg.dstOf (m ((c : Thread nD τ).loc main_arg1))) (m ((c : Thread nD τ).loc main_arg2)) (m ((c : Thread nD τ).loc main_arg3)) (m ((c : Thread nD τ).loc main_arg4))) (Agg.srcOf (m ((c : Thread nD τ).loc main_arg1))) (Agg.dstOf (m ((c : Thread nD τ).loc main_arg1))) (m ((c : Thread nD τ).loc main_arg5)) (m ((c : Thread nD τ).loc main_arg6)) (m ((c : Thread nD τ).loc main_arg7))) (Agg.srcOf (m ((c : Thread nD τ).loc main_arg1))) (Agg.dstOf (m ((c : Thread nD τ).loc main_arg1))) :=
  (Stretch2.agg (W4 m ρ c)).trans (by rw [out4 m ρ c, src4 m ρ c, dst4 m ρ c])
theorem feat5 : V5 m ρ c main_v53 = (Agg.sageLayer (Agg.sageLayer (m ((c : Thread nD τ).loc main_arg0)) (Agg.srcOf (m ((c : Thread nD τ).loc main_arg1))) (Agg.dstOf (m ((c : Thread nD τ).loc main_arg1))) (m ((c : Thread nD τ).loc main_arg2)) (m ((c : Thread nD τ).loc main_arg3)) (m ((c : Thread nD τ).loc main_arg4))) (Agg.srcOf (m ((c : Thread nD τ).loc main_arg1))) (Agg.dstOf (m ((c : Thread nD τ).loc main_arg1))) (m ((c : Thread nD τ).loc main_arg5)) (m ((c : Thread nD τ).loc main_arg6)) (m ((c : Thread nD τ).loc main_arg7))) := (Stretch2.keep_main_v53 (W4 m ρ c)).trans (out4 m ρ c)
theorem wl5 : V5 m ρ c main_v75 = (m ((c : Thread nD τ).loc main_arg8)) := (Stretch2.wl (W4 m ρ c)).trans (arg4_8 m ρ c)
theorem wr5 : V5 m ρ c main_v76 = (m ((c : Thread nD τ).loc main_arg10)) := (Stretch2.wr (W4 m ρ c)).trans (arg4_10 m ρ c)
theorem bias5 : V5 m ρ c main_v77 = Agg.row512 (m ((c : Thread nD τ).loc main_arg9)) := (Stretch2.bias (W4 m ρ c)).trans (congrArg Agg.row512 (arg4_9 m ρ c))
theorem arg5_11 : W5 m ρ c (Proc.devRef .tc main_arg11) = (m ((c : Thread nD τ).loc main_arg11)) := (Stretch2.keep_main_arg11 (W4 m ρ c)).trans (arg4_11 m ρ c)
theorem arg5_12 : W5 m ρ c (Proc.devRef .tc main_arg12) = (m ((c : Thread nD τ).loc main_arg12)) := (Stretch2.keep_main_arg12 (W4 m ρ c)).trans (arg4_12 m ρ c)

/-! ## After the third region -/

/-- The third region leaves the third layer. -/
theorem out6 : W6 m ρ c (Proc.devRef .tc main_v78) = (Agg.sageLayer (Agg.sageLayer (Agg.sageLayer (m ((c : Thread nD τ).loc main_arg0)) (Agg.srcOf (m ((c : Thread nD τ).loc main_arg1))) (Agg.dstOf (m ((c : Thread nD τ).loc main_arg1))) (m ((c : Thread nD τ).loc main_arg2)) (m ((c : Thread nD τ).loc main_arg3)) (m ((c : Thread nD τ).loc main_arg4))) (Agg.srcOf (m ((c : Thread nD τ).loc main_arg1))) (Agg.dstOf (m ((c : Thread nD τ).loc main_arg1))) (m ((c : Thread nD τ).loc main_arg5)) (m ((c : Thread nD τ).loc main_arg6)) (m ((c : Thread nD τ).loc main_arg7))) (Agg.srcOf (m ((c : Thread nD τ).loc main_arg1))) (Agg.dstOf (m ((c : Thread nD τ).loc main_arg1))) (m ((c : Thread nD τ).loc main_arg8)) (m ((c : Thread nD τ).loc main_arg9)) (m ((c : Thread nD τ).loc main_arg10))) := by
  refine (W6_arr m ρ c 5).trans ((Region2.value (V5 m ρ) c).trans ?_)
  show Cert.Sage.layer (V5 m ρ c main_v74) (V5 m ρ c main_v53) (V5 m ρ c main_v75) (V5 m ρ c main_v76) (V5 m ρ c main_v77) = _
  rw [agg5 m ρ c, feat5 m ρ c, wl5 m ρ c, wr5 m ρ c, bias5 m ρ c]
  rfl
theorem arg6_11 : W6 m ρ c (Proc.devRef .tc main_arg11) = (m ((c : Thread nD τ).loc main_arg11)) := (W6_of_ne m ρ c main_arg11 (by decide)).trans (arg5_11 m ρ c)
theorem arg6_12 : W6 m ρ c (Proc.devRef .tc main_arg12) = (m ((c : Thread nD τ).loc main_arg12)) := (W6_of_ne m ρ c main_arg12 (by decide)).trans (arg5_12 m ρ c)

/-! ## After the last stretch and the last region -/

theorem feat7 : V7 m ρ c main_v78 = (Agg.sageLayer (Agg.sageLayer (Agg.sageLayer (m ((c : Thread nD τ).loc main_arg0)) (Agg.srcOf (m ((c : Thread nD τ).loc main_arg1))) (Agg.dstOf (m ((c : Thread nD τ).loc main_arg1))) (m ((c : Thread nD τ).loc main_arg2)) (m ((c : Thread nD τ).loc main_arg3)) (m ((c : Thread nD τ).loc main_arg4))) (Agg.srcOf (m ((c : Thread nD τ).loc main_arg1))) (Agg.dstOf (m ((c : Thread nD τ).loc main_arg1))) (m ((c : Thread nD τ).loc main_arg5)) (m ((c : Thread nD τ).loc main_arg6)) (m ((c : Thread nD τ).loc main_arg7))) (Agg.srcOf (m ((c : Thread nD τ).loc main_arg1))) (Agg.dstOf (m ((c : Thread nD τ).loc main_arg1))) (m ((c : Thread nD τ).loc main_arg8)) (m ((c : Thread nD τ).loc main_arg9)) (m ((c : Thread nD τ).loc main_arg10))) := (Stretch2.out_feat (W6 m ρ c)).trans (out6 m ρ c)
theorem w7 : V7 m ρ c main_v79 = (m ((c : Thread nD τ).loc main_arg11)) := (Stretch2.out_w (W6 m ρ c)).trans (arg6_11 m ρ c)
theorem bias7 : V7 m ρ c main_v80 = Agg.row128 (m ((c : Thread nD τ).loc main_arg12)) := (Stretch2.out_bias (W6 m ρ c)).trans (congrArg Agg.row128 (arg6_12 m ρ c))

/-- THE RESULT ARRAY at the last region's exit is the network of the launch arguments. -/
theorem result : W8 m ρ c (Proc.devRef .tc main_v81)
    = Agg.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W8_arr m ρ c 3).trans ((Region3.value (V7 m ρ) c).trans ?_)
  show Cert.Sage.readout (V7 m ρ c main_v78) (V7 m ρ c main_v79) (V7 m ρ c main_v80) = _
  rw [feat7 m ρ c, w7 m ρ c, bias7 m ρ c]
  rfl

end Cert.KernelIdeal.KerValue

end
-- ==== Proof.LibRowOfVector.lean ====
/-
  A bias vector as an array of one row, two ways.

  A vector of length `a` can be made an array of shape `[1, a]` by a reshape (row-major positions are kept) or by a
  broadcast that sends the vector's axis to the array's second axis. Both arrays have entry `(0, q)` equal to entry `q`
  of the vector, so they are the same array. A tiled kernel usually receives its bias in the first form, a whole-array
  reference usually builds the second.
-/
import Idealize.ShloMosaic.Lib.ValueLayout
import Idealize.ShloMosaic.Lib.ValueIdx
import Idealize.ShloMosaic.Lib.Pipeline.Value

noncomputable section

namespace Cert.LibRowOfVector

open Idealize.ShloMosaic Idealize.ShloMosaic.ValueIdx

/-- A vector reshaped to an array of one row is the vector broadcast along that row: entry `(0, q)` of either is
    entry `q` of the vector. Holds for any element type and any length (for length one the broadcast reads index
    `0`, which is the only index). -/
theorem row_of_vector {α : Type} {a : ℕ} (x : (⟨1, ![a]⟩ : Shape).Idx → α) (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext i
  obtain ⟨u, q, rfl⟩ : ∃ (u : Fin 1) (q : Fin a), i = ix2 u q := ⟨i 0, i 1, eq_ix2 i⟩
  rw [shapeCast_a_1a_apply]
  refine (broadcastInDim_apply _ hb x (ix2 u q) (ix1 q) (fun d => ?_)).symm
  match d with
  | ⟨0, _⟩ =>
    show q.val = if a = 1 then 0 else q.val
    split
    · have := q.isLt; omega
    · rfl

end Cert.LibRowOfVector

end
-- ==== Proof.RefValue.lean ====
/-
  The reference program's result as three layers and a read-out.

  The reference computes, from the node features X, the edge list and the weights, three times

      H ↦ max ( (mean(H)·Wl + b) + H·Wr , 0 ),

  and then H·W + b, where mean(H) divides, entry by entry, the sum of the rows of H at the sources of the edges into a
  node by the larger of that node's number of incoming edges and one. Here the number of incoming edges is accumulated
  as a column (an array of one column) from a column of ones.

  This file names the reference's own operations for the mean, states one layer and the read-out as functions of their
  operands, shows that the generated per-operation values of the reference are these functions (one layer at a time),
  reads a layer at an entry (two products, the bias of the column, the maximum with zero) and so identifies it with the
  layer of the specification, the bias being added before the second product instead of after it, and chains the
  three layers and the read-out into one equation for the reference's result.
-/
import proofs.«148625_j86285892977273_1_alg».proof.Proof.Gen.ReferenceIdeal.Read
import proofs.«148625_j86285892977273_1_alg».proof.Proof.Spec
import proofs.«148625_j86285892977273_1_alg».proof.Proof.LibRowOfVector
import Idealize.ShloMosaic.Lib.Pipeline.Value
import Idealize.ShloMosaic.Lib.ValueIdx

noncomputable section

namespace Cert.ReferenceIdeal.Agg

open Cert.ReferenceIdeal Cert.ReferenceIdeal.Gen Idealize.ShloMosaic

/-- The source words with negative ones wrapped once by the number of nodes, as a column of start indices. -/
def srcIdx (s : IVec S160000 32) : IVec S160000x1 32 :=
  broadcastInDim S160000x1 ![0] bcast_S160000_S160000x1_0
    (select (cmpi .slt s (broadcastInDim S160000 ![] bcast_S_S160000 (constantI S_ 32 0#32)))
      (addi s (broadcastInDim S160000 ![] bcast_S_S160000 (constantI S_ 32 10000#32))) s)

/-- The destination words as a column of scatter indices. -/
def dstIdx (d : IVec S160000 32) : IVec S160000x1 32 :=
  broadcastInDim S160000x1 ![0] bcast_S160000_S160000x1_0 d

/-- The rows of X at the sources, added up per destination, starting from zeros. -/
def nbrSum (X : FVec Ideal S10000x512 .f32) (s d : IVec S160000 32) : FVec Ideal S10000x512 .f32 :=
  Host.scatterAdd scatter_S10000x512_S160000x1_S160000x512_1_0_0_1
    (broadcastInDim S10000x512 ![] bcast_S_S10000x512 (constant (F := Ideal) S_ .f32 0x00000000#32)) (dstIdx d)
    (Host.gather gather_S10000x512_S160000x1_S160000x512_1_0_n_n_0_1_1512 X (srcIdx s))

/-- The number of edges into each node, floored at one, as a column: a column of ones added up per destination. -/
def degree (d : IVec S160000 32) : FVec Ideal S10000x1 .f32 :=
  maximumf
    (Host.scatterAdd scatter_S10000x1_S160000x1_S160000x1_1_0_0_1
      (broadcastInDim S10000x1 ![] bcast_S_S10000x1 (constant (F := Ideal) S_ .f32 0x00000000#32)) (dstIdx d)
      (broadcastInDim S160000x1 ![] bcast_S_S160000x1 (constant (F := Ideal) S_ .f32 0x3F800000#32)))
    (broadcastInDim S10000x1 ![] bcast_S_S10000x1 (constant (F := Ideal) S_ .f32 0x3F800000#32))

/-- The floored degree of a row, repeated along the row. -/
def denom (d : IVec S160000 32) : FVec Ideal S10000x512 .f32 :=
  broadcastInDim S10000x512 ![0, 1] bcast_S10000x1_S10000x512_0_1 (degree d)

/-- The mean of the neighbours' rows. -/
def meanAgg (X : FVec Ideal S10000x512 .f32) (s d : IVec S160000 32) : FVec Ideal S10000x512 .f32 :=
  Host.divf (nbrSum X s d) (denom d)

/-- The edge list's first row: the source words. -/
def srcOf (ei : IVec S2x160000 32) : IVec S160000 32 :=
  shapeCast S160000 (extractStridedSlice S1x160000 ![0, 0] ei slices_S2x160000_S1x160000_0_0) shapeCasts_S1x160000_S160000

/-- The edge list's second row: the destination words. -/
def dstOf (ei : IVec S2x160000 32) : IVec S160000 32 :=
  shapeCast S160000 (extractStridedSlice S1x160000 ![1, 0] ei slices_S2x160000_S1x160000_1_0) shapeCasts_S1x160000_S160000

end Cert.ReferenceIdeal.Agg

namespace Cert.ReferenceIdeal.RefValue

open Cert.ReferenceIdeal Cert.ReferenceIdeal.Gen Idealize.ShloMosaic Idealize.ShloMosaic.ValueIdx Idealize.ShloMosaic.TcCoe
  Idealize.SL.Sem

/-- One layer as the reference spells it: the mean times Wl, plus the bias row repeated down the rows, plus X times Wr,
    and the maximum with a zero array. -/
def refLayer (X : FVec Ideal S10000x512 .f32) (s d : IVec S160000 32) (Wl : FVec Ideal S512x512 .f32) (b : FVec Ideal S512 .f32) (Wr : FVec Ideal S512x512 .f32) : FVec Ideal S10000x512 .f32 :=
  maximumf
    (addf
      (addf (Host.dotGeneral dot_S10000x512_S512x512_S10000x512_1_0_0_1_n_n none (Agg.meanAgg X s d) Wl)
        (broadcastInDim S10000x512 ![0, 1] bcast_S1x512_S10000x512_0_1 (broadcastInDim S1x512 ![1] bcast_S512_S1x512_1 b)))
      (Host.dotGeneral dot_S10000x512_S512x512_S10000x512_1_0_0_1_n_n none X Wr))
    (broadcastInDim S10000x512 ![] bcast_S_S10000x512 (constant (F := Ideal) S_ .f32 0x00000000#32))

/-- The read-out as the reference spells it: X times W plus the bias row repeated down the rows. -/
def refReadout (X : FVec Ideal S10000x512 .f32) (W : FVec Ideal S512x128 .f32) (b : FVec Ideal S128 .f32) : FVec Ideal S10000x128 .f32 :=
  addf (Host.dotGeneral dot_S10000x512_S512x128_S10000x128_1_0_0_1_n_n none X W)
    (broadcastInDim S10000x128 ![0, 1] bcast_S1x128_S10000x128_0_1 (broadcastInDim S1x128 ![1] bcast_S128_S1x128_1 b))

/-! ## The generated values of the reference are the layers, one layer at a time -/

/-- The first layer's value is the layer of the node features. -/
theorem val_v28_eq (x0 : FVec Ideal S10000x512 .f32) (x1 : IVec S2x160000 32) (x2 : FVec Ideal S512x512 .f32) (x3 : FVec Ideal S512 .f32) (x4 : FVec Ideal S512x512 .f32) :
    Read.val_main_v28 (F := Ideal) x0 x1 x2 x3 x4 = refLayer x0 (Agg.srcOf x1) (Agg.dstOf x1) x2 x3 x4 := rfl

/-- The second layer's value is the layer of the first layer's value. -/
theorem val_v53_eq (x0 : FVec Ideal S10000x512 .f32) (x1 : IVec S2x160000 32) (x2 : FVec Ideal S512x512 .f32) (x3 : FVec Ideal S512 .f32) (x4 x5 : FVec Ideal S512x512 .f32) (x6 : FVec Ideal S512 .f32) (x7 : FVec Ideal S512x512 .f32) :
    Read.val_main_v53 (F := Ideal) x0 x1 x2 x3 x4 x5 x6 x7
      = refLayer (Read.val_main_v28 (F := Ideal) x0 x1 x2 x3 x4) (Agg.srcOf x1) (Agg.dstOf x1) x5 x6 x7 := rfl

/-- The third layer's value is the layer of the second layer's value. -/
theorem val_v78_eq (x0 : FVec Ideal S10000x512 .f32) (x1 : IVec S2x160000 32) (x2 : FVec Ideal S512x512 .f32) (x3 : FVec Ideal S512 .f32) (x4 x5 : FVec Ideal S512x512 .f32) (x6 : FVec Ideal S512 .f32) (x7 x8 : FVec Ideal S512x512 .f32)
    (x9 : FVec Ideal S512 .f32) (x10 : FVec Ideal S512x512 .f32) :
    Read.val_main_v78 (F := Ideal) x0 x1 x2 x3 x4 x5 x6 x7 x8 x9 x10
      = refLayer (Read.val_main_v53 (F := Ideal) x0 x1 x2 x3 x4 x5 x6 x7) (Agg.srcOf x1) (Agg.dstOf x1) x8 x9 x10 := rfl

/-- The result's value is the read-out of the third layer's value. -/
theorem val_v82_eq (x0 : FVec Ideal S10000x512 .f32) (x1 : IVec S2x160000 32) (x2 : FVec Ideal S512x512 .f32) (x3 : FVec Ideal S512 .f32) (x4 x5 : FVec Ideal S512x512 .f32) (x6 : FVec Ideal S512 .f32) (x7 x8 : FVec Ideal S512x512 .f32)
    (x9 : FVec Ideal S512 .f32) (x10 : FVec Ideal S512x512 .f32) (x11 : FVec Ideal S512x128 .f32) (x12 : FVec Ideal S128 .f32) :
    Read.val_main_v82 (F := Ideal) x0 x1 x2 x3 x4 x5 x6 x7 x8 x9 x10 x11 x12
      = refReadout (Read.val_main_v78 (F := Ideal) x0 x1 x2 x3 x4 x5 x6 x7 x8 x9 x10) x11 x12 := rfl

/-! ## A layer and the read-out at an entry -/

/-- The reference's layer is the specification's layer of the mean and the features, with the bias vector as a row:
    at entry (i, q) both are the maximum with zero of the two products and the bias of column q, the reference adding
    the bias before the second product. -/
theorem refLayer_eq (X : FVec Ideal S10000x512 .f32) (s d : IVec S160000 32) (Wl : FVec Ideal S512x512 .f32) (b : FVec Ideal S512 .f32) (Wr : FVec Ideal S512x512 .f32) :
    refLayer X s d Wl b Wr
      = Cert.Sage.layer (Agg.meanAgg X s d) X Wl Wr (broadcastInDim S1x512 ![1] bcast_S512_S1x512_1 b) := by
  funext j
  obtain ⟨i, q, rfl⟩ : ∃ (i : Fin 10000) (q : Fin 512), j = ix2 i q := ⟨j 0, j 1, eq_ix2 j⟩
  have hbias : broadcastInDim S10000x512 ![0, 1] bcast_S1x512_S10000x512_0_1
      (broadcastInDim S1x512 ![1] bcast_S512_S1x512_1 b) (ix2 i q)
        = broadcastInDim S1x512 ![1] bcast_S512_S1x512_1 b (ix2 0 q) :=
    broadcastInDim_apply _ bcast_S1x512_S10000x512_0_1 _ (ix2 i q) (ix2 0 q) (fun a => match a with
      | ⟨0, _⟩ => by show 0 = if (1 : Nat) = 1 then 0 else i.val; rw [if_pos rfl]
      | ⟨1, _⟩ => by show q.val = if (512 : Nat) = 1 then 0 else q.val; rw [if_neg (by decide)])
  have hzero : broadcastInDim S10000x512 ![] bcast_S_S10000x512 (constant (F := Ideal) S_ .f32 0x00000000#32) (ix2 i q)
      = (0 : EReal) :=
    (broadcastInDim_apply _ bcast_S_S10000x512 (constant (F := Ideal) S_ .f32 0x00000000#32) (ix2 i q) ix0
      (fun a => a.elim0)).trans Ideal.ofBits_zero_f32
  unfold refLayer
  rw [maximumf_apply, addf_apply, addf_apply, hbias, hzero,
    MatProd.dotGeneral_eq ⟨rfl, rfl, rfl, rfl, rfl, rfl⟩ none (Agg.meanAgg X s d) Wl,
    MatProd.dotGeneral_eq ⟨rfl, rfl, rfl, rfl, rfl, rfl⟩ none X Wr]
  exact Cert.Sage.layer_bias_first (Agg.meanAgg X s d) X Wl Wr _ i q

/-- The reference's read-out is the specification's read-out, with the bias vector as a row. -/
theorem refReadout_eq (X : FVec Ideal S10000x512 .f32) (W : FVec Ideal S512x128 .f32) (b : FVec Ideal S128 .f32) :
    refReadout X W b = Cert.Sage.readout X W (broadcastInDim S1x128 ![1] bcast_S128_S1x128_1 b) := by
  funext j
  obtain ⟨i, q, rfl⟩ : ∃ (i : Fin 10000) (q : Fin 128), j = ix2 i q := ⟨j 0, j 1, eq_ix2 j⟩
  have hbias : broadcastInDim S10000x128 ![0, 1] bcast_S1x128_S10000x128_0_1
      (broadcastInDim S1x128 ![1] bcast_S128_S1x128_1 b) (ix2 i q)
        = broadcastInDim S1x128 ![1] bcast_S128_S1x128_1 b (ix2 0 q) :=
    broadcastInDim_apply _ bcast_S1x128_S10000x128_0_1 _ (ix2 i q) (ix2 0 q) (fun a => match a with
      | ⟨0, _⟩ => by show 0 = if (1 : Nat) = 1 then 0 else i.val; rw [if_pos rfl]
      | ⟨1, _⟩ => by show q.val = if (128 : Nat) = 1 then 0 else q.val; rw [if_neg (by decide)])
  unfold refReadout
  rw [addf_apply, hbias, MatProd.dotGeneral_eq ⟨rfl, rfl, rfl, rfl, rfl, rfl⟩ none X W, Cert.Sage.readout_apply]

/-! ## The whole reference -/

/-- The reference's result as a function of its thirteen arguments: the read-out of the third of three nested layers,
    each layer taking the mean of the layer before it over the same edge list. -/
theorem val_v82_net (X : FVec Ideal S10000x512 .f32) (ei : IVec S2x160000 32) (W2 : FVec Ideal S512x512 .f32) (b3 : FVec Ideal S512 .f32) (W4 W5 : FVec Ideal S512x512 .f32) (b6 : FVec Ideal S512 .f32) (W7 W8 : FVec Ideal S512x512 .f32)
    (b9 : FVec Ideal S512 .f32) (W10 : FVec Ideal S512x512 .f32) (W11 : FVec Ideal S512x128 .f32) (b12 : FVec Ideal S128 .f32) :
    Read.val_main_v82 (F := Ideal) X ei W2 b3 W4 W5 b6 W7 W8 b9 W10 W11 b12
      = Cert.Sage.readout
          (Cert.Sage.layer
            (Agg.meanAgg
              (Cert.Sage.layer
                (Agg.meanAgg (Cert.Sage.layer (Agg.meanAgg X (Agg.srcOf ei) (Agg.dstOf ei)) X W2 W4 (broadcastInDim S1x512 ![1] bcast_S512_S1x512_1 b3))
                  (Agg.srcOf ei) (Agg.dstOf ei))
                (Cert.Sage.layer (Agg.meanAgg X (Agg.srcOf ei) (Agg.dstOf ei)) X W2 W4 (broadcastInDim S1x512 ![1] bcast_S512_S1x512_1 b3)) W5 W7 (broadcastInDim S1x512 ![1] bcast_S512_S1x512_1 b6))
              (Agg.srcOf ei) (Agg.dstOf ei))
            (Cert.Sage.layer
              (Agg.meanAgg (Cert.Sage.layer (Agg.meanAgg X (Agg.srcOf ei) (Agg.dstOf ei)) X W2 W4 (broadcastInDim S1x512 ![1] bcast_S512_S1x512_1 b3))
                (Agg.srcOf ei) (Agg.dstOf ei))
              (Cert.Sage.layer (Agg.meanAgg X (Agg.srcOf ei) (Agg.dstOf ei)) X W2 W4 (broadcastInDim S1x512 ![1] bcast_S512_S1x512_1 b3)) W5 W7 (broadcastInDim S1x512 ![1] bcast_S512_S1x512_1 b6))
            W8 W10 (broadcastInDim S1x512 ![1] bcast_S512_S1x512_1 b9))
          W11 (broadcastInDim S1x128 ![1] bcast_S128_S1x128_1 b12) := by
  rw [val_v82_eq, refReadout_eq, val_v78_eq, refLayer_eq, val_v53_eq, refLayer_eq, val_v28_eq, refLayer_eq]

/-- The reference's result, as its run states it from a memory, is the read-out of the three nested layers of the
    memory's thirteen arguments. -/
theorem result_eq (m : (ℓ : Loc nD τ sig) → Buf (Elt Ideal) ℓ) (c : Dev nD) :
    Cert.ReferenceIdeal.Value.res_main_v82 (F := Ideal) m c
      = Read.val_main_v82 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12)) :=
  Read.val_main_v82_eq m c

end Cert.ReferenceIdeal.RefValue

end
-- ==== Proof.LibGatherScatter.lean ====
/-
  `stablehlo.gather` and the accumulating `stablehlo.scatter` READ AT AN INDEX, for start indices given as an `[E, 1]`
  array.

  What `x[idx]` and a segment sum lower to when the `E` start indices are the rows of an `[E, 1]` integer array, the
  index vector on axis 1 with its one component naming operand axis 0:
  * gather of a flat operand `[N]` (`vecGatherDims`, `gather_vec_apply`): result element `e` is the operand at the start
    index `idx[e, 0]`, read signed and clamped into `[0, N − 1]`;
  * gather of the rows of an operand `[N, C]` (`rowGatherDims`, `gather_row_apply`): result element `(e, j)` is the
    operand at row `idx[e, 0]` (signed, clamped into `[0, N − 1]`) and column `j`;
  * accumulating scatter of update rows `[E, C]` into an operand `[N, C]` (`rowScatterDims`, `scatterAdd_row_apply`):
    operand element `(i, j)` plus the sum of `upd[e, j]` over the update rows `e` whose start index `idx[e, 0]`, read
    signed and NOT clamped, is `i` (a row whose start index is outside `[0, N)` is dropped);
  * accumulating scatter of updates `[E]` into a flat operand `[N]` (`vecScatterDims`, `scatterAdd_vec_apply`): operand
    element `i` plus the sum of `upd[e]` over the `e` with `idx[e, 0] = i`.
  The conditions `wf` on the dimension numbers are decided on a program's literal shapes; any two proofs of them are
  equal, so a program's record with these field values is the one here.
-/
import Idealize.ShloMosaic.Lib.ValueIdx
import Idealize.ShloMosaic.PureOps.Ideal

noncomputable section

open scoped BigOperators

namespace Idealize.ShloMosaic.GatherScatter

open Idealize.ShloMosaic Idealize.ShloMosaic.ValueIdx

/-! ## The dimension numbers -/

/-- Gather of a flat operand `[N]` at start indices `[E, 1]`, result `[E]`: no offset axes, operand axis 0 collapsed,
    the index vector on axis 1 with its one component naming operand axis 0, slice size 1. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather of the rows of an operand `[N, C]` at start indices `[E, 1]`, result `[E, C]`: result axis 1 the offset axis
    (the column), operand axis 0 collapsed, the index vector on axis 1 with its one component naming operand axis 0,
    slice sizes one row by all `C` columns. -/
abbrev rowGatherDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Scatter of update rows `[E, C]` into an operand `[N, C]` at scatter indices `[E, 1]`: update axis 1 the window axis
    (the column), operand axis 0 inserted, the index vector on axis 1 with its one component naming operand axis 0. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of updates `[E]` into a flat operand `[N]` at scatter indices `[E, 1]`: no window axes, operand axis 0
    inserted, the index vector on axis 1 with its one component naming operand axis 0. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers read at an index -/

/-- THE FLAT GATHER READ AT `e`: the operand at the start index `idx[e, 0]`, read signed and clamped into
    `[0, N − 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE ROW GATHER READ AT `(e, j)`: the operand at row `idx[e, 0]`, read signed and clamped into `[0, N − 1]`, and
    column `j` (axis 0 takes the clamped start, no offset; axis 1 is not in the start index map and takes the result's
    offset coordinate). -/
theorem gather_row_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGatherDims N C E wf) x idx (ix2 e j) = x (ix2 ⟨min (idx (ix2 e 0)).toInt.toNat (N - 1), by omega⟩ j) := by
  unfold Host.gather
  congr 1
  funext a
  refine Fin.ext ?_
  match a with
  | ⟨0, _⟩ =>
    show (rowGatherDims N C E wf).start (ix2 e j) idx 0 + (rowGatherDims N C E wf).batchCoord (ix2 e j) 0
      + (rowGatherDims N C E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e j) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e j) idx 1 + (rowGatherDims N C E wf).batchCoord (ix2 e j) 1
      + (rowGatherDims N C E wf).offCoord (ix2 e j) 1 = j.val
    rw [GatherDims.batchCoord_eq_zero _ _ _ List.not_mem_nil]
    have hs : (rowGatherDims N C E wf).start (ix2 e j) idx 1 = 0 := by
      unfold GatherDims.start
      rw [dif_neg (show (1 : Fin 2) ∉ (rowGatherDims N C E wf).startIndexMap from (by decide : (1 : Fin 2) ∉ [(0 : Fin 2)]))]
    rw [hs]
    simp only [Nat.add_zero, Nat.zero_add]
    have hk : (1 : Fin 2) ∈ (rowGatherDims N C E wf).sKept :=
      (GatherDims.mem_sKept _ _).mpr ⟨(by decide : (1 : Fin 2) ∉ [(0 : Fin 2)]), List.not_mem_nil⟩
    unfold GatherDims.offCoord
    rw [dif_pos hk]
    rfl

/-! ## The accumulating row scatter read at an index -/

section RowScatter
variable {N C E w : Nat} (wf : ScatterDims.WF ⟨2, ![N, C]⟩ ⟨2, ![E, 1]⟩ ⟨2, ![E, C]⟩ [1] [0] [0] 1)

/-- On operand axis 0 the window of update index `u` starts at the scatter index `idx[u₀, 0]`, read signed. -/
theorem rowScatter_start0 (idx : IVec ⟨2, ![E, 1]⟩ w) (u : (⟨2, ![E, C]⟩ : Shape).Idx) :
    (rowScatterDims N C E wf).start u idx (0 : Fin 2) = (idx (ix2 (u 0) 0)).toInt := by
  unfold ScatterDims.start
  rw [dif_pos (show (0 : Fin 2) ∈ (rowScatterDims N C E wf).scatterDimsToOperandDims from List.mem_singleton.mpr rfl)]
  have hsi : (rowScatterDims N C E wf).siIdx u ⟨List.idxOf (0 : Fin 2) (rowScatterDims N C E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- Operand axis 1 is not named by the scatter index: its window starts at `0`. -/
theorem rowScatter_start1 (idx : IVec ⟨2, ![E, 1]⟩ w) (u : (⟨2, ![E, C]⟩ : Shape).Idx) :
    (rowScatterDims N C E wf).start u idx (1 : Fin 2) = 0 := by
  unfold ScatterDims.start
  rw [dif_neg (show (1 : Fin 2) ∉ (rowScatterDims N C E wf).scatterDimsToOperandDims from
    (by decide : (1 : Fin 2) ∉ [(0 : Fin 2)]))]

/-- Operand axis 0 is an inserted axis: no window coordinate. -/
theorem rowScatter_window0 (u : (⟨2, ![E, C]⟩ : Shape).Idx) :
    (rowScatterDims N C E wf).window u (0 : Fin 2) = 0 := by
  unfold ScatterDims.window
  rw [dif_neg (show (0 : Fin 2) ∉ (rowScatterDims N C E wf).sKept from
    (by decide : (0 : Fin 2) ∉ (List.finRange 2).filter (· ∉ [(0 : Fin 2)])))]

/-- On operand axis 1 the window coordinate of update index `u` is its column. -/
theorem rowScatter_window1 (u : (⟨2, ![E, C]⟩ : Shape).Idx) :
    (rowScatterDims N C E wf).window u (1 : Fin 2) = (u 1).val := by
  unfold ScatterDims.window
  rw [dif_pos (show (1 : Fin 2) ∈ (rowScatterDims N C E wf).sKept from
    (by decide : (1 : Fin 2) ∈ (List.finRange 2).filter (· ∉ [(0 : Fin 2)])))]
  rfl

/-- Update index `u = (e, j')` lands on operand index `(i, j)` exactly when the signed start index `idx[e, 0]` is `i`
    and `j' = j`; otherwise it lands elsewhere or, with the start outside `[0, N)`, nowhere. -/
theorem rowScatter_resultIdx_iff (idx : IVec ⟨2, ![E, 1]⟩ w) (u : (⟨2, ![E, C]⟩ : Shape).Idx) (i : Fin N) (j : Fin C) :
    (rowScatterDims N C E wf).resultIdx? u idx = some (ix2 i j) ↔ (idx (ix2 (u 0) 0)).toInt = (i.val : Int) ∧ u 1 = j := by
  unfold ScatterDims.resultIdx?
  constructor
  · intro h
    split at h
    · rename_i hall
      have hf := Option.some.inj h
      have h0 := congrArg Fin.val (congrFun hf (0 : Fin 2))
      have h1 := congrArg Fin.val (congrFun hf (1 : Fin 2))
      have ha0 := hall (0 : Fin 2)
      have ha1 := hall (1 : Fin 2)
      simp only [rowScatter_start0, rowScatter_start1, rowScatter_window0, rowScatter_window1] at h0 h1 ha0 ha1
      refine ⟨?_, Fin.ext ?_⟩
      · have : (i.val : Int) = ((ix2 i j (0 : Fin 2)).val : Int) := rfl
        omega
      · have : (j.val) = ((ix2 i j (1 : Fin 2)).val) := rfl
        omega
    · exact absurd h (by simp)
  · rintro ⟨h0, h1⟩
    have hall : ∀ a : Fin 2, 0 ≤ (rowScatterDims N C E wf).start u idx a + (rowScatterDims N C E wf).window u a ∧
        (rowScatterDims N C E wf).start u idx a + (rowScatterDims N C E wf).window u a
          < ((⟨2, ![N, C]⟩ : Shape).size a : Int) := by
      intro a
      match a with
      | ⟨0, _⟩ =>
        show 0 ≤ (rowScatterDims N C E wf).start u idx (0 : Fin 2) + ((rowScatterDims N C E wf).window u (0 : Fin 2) : Int) ∧
          (rowScatterDims N C E wf).start u idx (0 : Fin 2) + ((rowScatterDims N C E wf).window u (0 : Fin 2) : Int) < (N : Int)
        rw [rowScatter_start0, rowScatter_window0, h0]
        have := i.isLt
        omega
      | ⟨1, _⟩ =>
        show 0 ≤ (rowScatterDims N C E wf).start u idx (1 : Fin 2) + ((rowScatterDims N C E wf).window u (1 : Fin 2) : Int) ∧
          (rowScatterDims N C E wf).start u idx (1 : Fin 2) + ((rowScatterDims N C E wf).window u (1 : Fin 2) : Int) < (C : Int)
        rw [rowScatter_start1, rowScatter_window1]
        have := idx2_lt1 u
        omega
    rw [dif_pos hall]
    congr 1
    funext a
    refine Fin.ext ?_
    match a with
    | ⟨0, _⟩ =>
      show ((rowScatterDims N C E wf).start u idx (0 : Fin 2) + ((rowScatterDims N C E wf).window u (0 : Fin 2) : Int)).toNat = i.val
      rw [rowScatter_start0, rowScatter_window0, h0]
      omega
    | ⟨1, _⟩ =>
      show ((rowScatterDims N C E wf).start u idx (1 : Fin 2) + ((rowScatterDims N C E wf).window u (1 : Fin 2) : Int)).toNat = j.val
      rw [rowScatter_start1, rowScatter_window1, ← h1]
      omega

/-- THE ACCUMULATING ROW SCATTER READ AT `(i, j)`: the operand's element plus the sum of `upd[e, j]` over the update
    rows `e` whose start index `idx[e, 0]`, read signed and not clamped, is `i`; a row whose start index is outside
    `[0, N)` contributes nothing. (The update indices landing on `(i, j)` are `(e, j)` for those `e`: the sum is
    re-indexed along `e ↦ (e, j)`.) -/
theorem scatterAdd_row_apply
    (x : (⟨2, ![N, C]⟩ : Shape).Idx → EReal) (idx : IVec ⟨2, ![E, 1]⟩ w) (upd : (⟨2, ![E, C]⟩ : Shape).Idx → EReal)
    (i : Fin N) (j : Fin C) :
    Ideal.hostScatterAdd (rowScatterDims N C E wf) x idx upd (ix2 i j)
      = x (ix2 i j) + ∑ e ∈ Finset.univ.filter (fun e : Fin E => (idx (ix2 e 0)).toInt = (i.val : Int)), upd (ix2 e j) := by
  unfold Ideal.hostScatterAdd
  congr 1
  refine Finset.sum_nbij' (fun u => u 0) (fun e => ix2 e j) ?_ ?_ ?_ ?_ ?_
  · intro u hu
    exact Finset.mem_filter.mpr ⟨Finset.mem_univ _, ((rowScatter_resultIdx_iff wf idx u i j).mp (Finset.mem_filter.mp hu).2).1⟩
  · intro e he
    exact Finset.mem_filter.mpr ⟨Finset.mem_univ _,
      (rowScatter_resultIdx_iff wf idx (ix2 e j) i j).mpr ⟨(Finset.mem_filter.mp he).2, rfl⟩⟩
  · intro u hu
    have h1 := ((rowScatter_resultIdx_iff wf idx u i j).mp (Finset.mem_filter.mp hu).2).2
    rw [← h1]
    exact (eq_ix2 u).symm
  · intro e _
    rfl
  · intro u hu
    have h1 := ((rowScatter_resultIdx_iff wf idx u i j).mp (Finset.mem_filter.mp hu).2).2
    rw [← h1]
    exact congrArg upd (eq_ix2 u)

end RowScatter

/-! ## The accumulating flat scatter read at an index -/

section VecScatter
variable {N E w : Nat} (wf : ScatterDims.WF ⟨1, ![N]⟩ ⟨2, ![E, 1]⟩ ⟨1, ![E]⟩ [] [0] [0] 1)

/-- On operand axis 0 the window of update index `u` starts at the scatter index `idx[u₀, 0]`, read signed. -/
theorem vecScatter_start0 (idx : IVec ⟨2, ![E, 1]⟩ w) (u : (⟨1, ![E]⟩ : Shape).Idx) :
    (vecScatterDims N E wf).start u idx (0 : Fin 1) = (idx (ix2 (u 0) 0)).toInt := by
  unfold ScatterDims.start
  rw [dif_pos (show (0 : Fin 1) ∈ (vecScatterDims N E wf).scatterDimsToOperandDims from List.mem_singleton.mpr rfl)]
  have hsi : (vecScatterDims N E wf).siIdx u ⟨List.idxOf (0 : Fin 1) (vecScatterDims N E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- Operand axis 0 is an inserted axis: no window coordinate. -/
theorem vecScatter_window0 (u : (⟨1, ![E]⟩ : Shape).Idx) :
    (vecScatterDims N E wf).window u (0 : Fin 1) = 0 := by
  unfold ScatterDims.window
  rw [dif_neg (show (0 : Fin 1) ∉ (vecScatterDims N E wf).sKept from
    (by decide : (0 : Fin 1) ∉ (List.finRange 1).filter (· ∉ [(0 : Fin 1)])))]

/-- Update index `u = (e)` lands on operand index `(i)` exactly when the signed start index `idx[e, 0]` is `i`. -/
theorem vecScatter_resultIdx_iff (idx : IVec ⟨2, ![E, 1]⟩ w) (u : (⟨1, ![E]⟩ : Shape).Idx) (i : Fin N) :
    (vecScatterDims N E wf).resultIdx? u idx = some (ix1 i) ↔ (idx (ix2 (u 0) 0)).toInt = (i.val : Int) := by
  unfold ScatterDims.resultIdx?
  constructor
  · intro h
    split at h
    · rename_i hall
      have hf := Option.some.inj h
      have h0 := congrArg Fin.val (congrFun hf (0 : Fin 1))
      have ha0 := hall (0 : Fin 1)
      simp only [vecScatter_start0, vecScatter_window0] at h0 ha0
      have : (i.val : Int) = ((ix1 i (0 : Fin 1)).val : Int) := rfl
      omega
    · exact absurd h (by simp)
  · intro h0
    have hall : ∀ a : Fin 1, 0 ≤ (vecScatterDims N E wf).start u idx a + (vecScatterDims N E wf).window u a ∧
        (vecScatterDims N E wf).start u idx a + (vecScatterDims N E wf).window u a
          < ((⟨1, ![N]⟩ : Shape).size a : Int) := by
      intro a
      match a with
      | ⟨0, _⟩ =>
        show 0 ≤ (vecScatterDims N E wf).start u idx (0 : Fin 1) + ((vecScatterDims N E wf).window u (0 : Fin 1) : Int) ∧
          (vecScatterDims N E wf).start u idx (0 : Fin 1) + ((vecScatterDims N E wf).window u (0 : Fin 1) : Int) < (N : Int)
        rw [vecScatter_start0, vecScatter_window0, h0]
        have := i.isLt
        omega
    rw [dif_pos hall]
    congr 1
    funext a
    refine Fin.ext ?_
    match a with
    | ⟨0, _⟩ =>
      show ((vecScatterDims N E wf).start u idx (0 : Fin 1) + ((vecScatterDims N E wf).window u (0 : Fin 1) : Int)).toNat = i.val
      rw [vecScatter_start0, vecScatter_window0, h0]
      omega

/-- THE ACCUMULATING FLAT SCATTER READ AT `i`: the operand's element plus the sum of `upd[e]` over the `e` whose start
    index `idx[e, 0]`, read signed and not clamped, is `i`; an update whose start index is outside `[0, N)` contributes
    nothing. -/
theorem scatterAdd_vec_apply
    (x : (⟨1, ![N]⟩ : Shape).Idx → EReal) (idx : IVec ⟨2, ![E, 1]⟩ w) (upd : (⟨1, ![E]⟩ : Shape).Idx → EReal)
    (i : Fin N) :
    Ideal.hostScatterAdd (vecScatterDims N E wf) x idx upd (ix1 i)
      = x (ix1 i) + ∑ e ∈ Finset.univ.filter (fun e : Fin E => (idx (ix2 e 0)).toInt = (i.val : Int)), upd (ix1 e) := by
  unfold Ideal.hostScatterAdd
  congr 1
  refine Finset.sum_nbij' (fun u => u 0) (fun e => ix1 e) ?_ ?_ ?_ ?_ ?_
  · intro u hu
    exact Finset.mem_filter.mpr ⟨Finset.mem_univ _, (vecScatter_resultIdx_iff wf idx u i).mp (Finset.mem_filter.mp hu).2⟩
  · intro e he
    exact Finset.mem_filter.mpr ⟨Finset.mem_univ _,
      (vecScatter_resultIdx_iff wf idx (ix1 e) i).mpr (Finset.mem_filter.mp he).2⟩
  · intro u _
    exact (eq_ix1 u).symm
  · intro e _
    rfl
  · intro u _
    exact congrArg upd (eq_ix1 u)

end VecScatter

end Idealize.ShloMosaic.GatherScatter

end
-- ==== Proof.Bridge.lean ====
/-
  The reference's result is the network of the kernel program's arrangement.

  Both programs average the neighbours' rows in the same way, except for how they count the edges into a node: the
  reference accumulates a column of ones into a column (an array with one column), the kernel program accumulates a
  vector of ones into a vector and then makes it a column. Read at node i, either count is zero plus a one for every
  edge whose destination word, read signed, is i; so the two floored degrees, repeated along the rows, are the same
  array, the sums of the neighbours' rows are the same term, and the two means agree. The two programs also lay the bias
  vector out as a one-row array in two ways, a broadcast and a reshape, which give the same array. With these, each
  layer of the reference is the kernel program's layer, and the reference's result is the three nested layers and the
  read-out, as one function of the thirteen arguments.
-/
import proofs.«148625_j86285892977273_1_alg».proof.Proof.RefValue
import proofs.«148625_j86285892977273_1_alg».proof.Proof.KerSpec
import proofs.«148625_j86285892977273_1_alg».proof.Proof.LibGatherScatter

noncomputable section

open scoped BigOperators

namespace Cert.Bridge

open Idealize.ShloMosaic Idealize.ShloMosaic.ValueIdx

/-- A constant repeated over a whole array, read at any index, is the extended real its word encodes. -/
theorem splat_apply {t : Shape} (dims : Fin 0 → Fin t.rank) (h : (⟨0, ![]⟩ : Shape).BroadcastsInDim t dims)
    (w : BitVec 32) (j : t.Idx) :
    broadcastInDim t dims h (constant (F := Ideal) (⟨0, ![]⟩ : Shape) .f32 w) j = Ideal.ofBits .f32 w :=
  broadcastInDim_apply dims h _ j ix0 (fun a => a.elim0)

/-- Zero plus a one for every edge whose index word, read signed, is node i. -/
def inCount (idx : IVec ⟨2, ![160000, 1]⟩ 32) (i : Fin 10000) : EReal :=
  Ideal.ofBits .f32 0x00000000#32
    + ∑ _e ∈ Finset.univ.filter (fun e : Fin 160000 => (idx (ix2 e 0)).toInt = (i.val : Int)), Ideal.ofBits .f32 0x3F800000#32

/-- The reference's floored degree of node i, read in its column. -/
theorem ref_degree_apply (d : IVec ⟨1, ![160000]⟩ 32) (i : Fin 10000) :
    Cert.ReferenceIdeal.Agg.degree d (ix2 i 0)
      = max (inCount (Cert.ReferenceIdeal.Agg.dstIdx d) i) (Ideal.ofBits .f32 0x3F800000#32) := by
  unfold Cert.ReferenceIdeal.Agg.degree
  rw [maximumf_apply, splat_apply]
  refine congrArg (fun z => max z (Ideal.ofBits .f32 0x3F800000#32)) ?_
  show Ideal.hostScatterAdd (GatherScatter.rowScatterDims 10000 1 160000
    Cert.ReferenceIdeal.Gen.scatter_S10000x1_S160000x1_S160000x1_1_0_0_1_wf) _ _ _ (ix2 i 0) = _
  rw [GatherScatter.scatterAdd_row_apply]
  exact congrArg₂ (· + ·) (splat_apply _ _ _ _) (Finset.sum_congr rfl fun e _ => splat_apply _ _ _ _)

/-- The kernel program's floored degree of node i. -/
theorem ker_degree_apply (d : IVec ⟨1, ![160000]⟩ 32) (i : Fin 10000) :
    Cert.KernelIdeal.Agg.degree d (ix1 i)
      = max (inCount (Cert.KernelIdeal.Agg.dstIdx d) i) (Ideal.ofBits .f32 0x3F800000#32) := by
  unfold Cert.KernelIdeal.Agg.degree
  rw [maximumf_apply, splat_apply]
  refine congrArg (fun z => max z (Ideal.ofBits .f32 0x3F800000#32)) ?_
  show Ideal.hostScatterAdd (GatherScatter.vecScatterDims 10000 160000
    Cert.KernelIdeal.Facts₀.scatter_S10000_S160000x1_S160000_n_0_0_1_wf) _ _ _ (ix1 i) = _
  rw [GatherScatter.scatterAdd_vec_apply]
  exact congrArg₂ (· + ·) (splat_apply _ _ _ _) (Finset.sum_congr rfl fun e _ => splat_apply _ _ _ _)

/-- The floored degrees repeated along the rows are the same array in the two programs. -/
theorem denom_eq (d : IVec ⟨1, ![160000]⟩ 32) : Cert.ReferenceIdeal.Agg.denom d = Cert.KernelIdeal.Agg.denom d := by
  funext j
  obtain ⟨i, q, rfl⟩ : ∃ (i : Fin 10000) (q : Fin 512), j = ix2 i q := ⟨j 0, j 1, eq_ix2 j⟩
  have hR : Cert.ReferenceIdeal.Agg.denom d (ix2 i q) = Cert.ReferenceIdeal.Agg.degree d (ix2 i 0) := by
    unfold Cert.ReferenceIdeal.Agg.denom
    exact broadcastInDim_apply _ _ _ (ix2 i q) (ix2 i 0) (fun a => match a with
      | ⟨0, _⟩ => by show i.val = if (10000 : Nat) = 1 then 0 else i.val; rw [if_neg (by decide)]
      | ⟨1, _⟩ => by show 0 = if (1 : Nat) = 1 then 0 else q.val; rw [if_pos rfl])
  have hK : Cert.KernelIdeal.Agg.denom d (ix2 i q) = Cert.KernelIdeal.Agg.degree d (ix1 i) := by
    unfold Cert.KernelIdeal.Agg.denom
    refine (broadcastInDim_apply _ _ _ (ix2 i q) (ix2 i 0) (fun a => match a with
      | ⟨0, _⟩ => by show i.val = if (10000 : Nat) = 1 then 0 else i.val; rw [if_neg (by decide)]
      | ⟨1, _⟩ => by show 0 = if (1 : Nat) = 1 then 0 else q.val; rw [if_pos rfl])).trans ?_
    exact broadcastInDim_apply _ _ _ (ix2 i 0) (ix1 i) (fun a => match a with
      | ⟨0, _⟩ => by show i.val = if (10000 : Nat) = 1 then 0 else i.val; rw [if_neg (by decide)])
  rw [hR, hK, ref_degree_apply, ker_degree_apply]
  rfl

/-- The mean of the neighbours' rows is the same array in the two programs. -/
theorem meanAgg_eq (X : FVec Ideal ⟨2, ![10000, 512]⟩ .f32) (s d : IVec ⟨1, ![160000]⟩ 32) :
    Cert.ReferenceIdeal.Agg.meanAgg X s d = Cert.KernelIdeal.Agg.meanAgg X s d := by
  unfold Cert.ReferenceIdeal.Agg.meanAgg Cert.KernelIdeal.Agg.meanAgg
  rw [denom_eq]
  rfl

/-- A bias vector of length 512 broadcast to a one-row array is the vector reshaped to that array. -/
theorem row512_eq (b : FVec Ideal ⟨1, ![512]⟩ .f32)
    (h : (⟨1, ![512]⟩ : Shape).BroadcastsInDim ⟨2, ![1, 512]⟩ ![1]) :
    broadcastInDim ⟨2, ![1, 512]⟩ ![1] h b = Cert.KernelIdeal.Agg.row512 b :=
  (Cert.LibRowOfVector.row_of_vector b _ h).symm

/-- A bias vector of length 128 broadcast to a one-row array is the vector reshaped to that array. -/
theorem row128_eq (b : FVec Ideal ⟨1, ![128]⟩ .f32)
    (h : (⟨1, ![128]⟩ : Shape).BroadcastsInDim ⟨2, ![1, 128]⟩ ![1]) :
    broadcastInDim ⟨2, ![1, 128]⟩ ![1] h b = Cert.KernelIdeal.Agg.row128 b :=
  (Cert.LibRowOfVector.row_of_vector b _ h).symm

/-- A layer of the reference is the kernel program's layer. -/
theorem refLayer_ker (H : FVec Ideal ⟨2, ![10000, 512]⟩ .f32) (s d : IVec ⟨1, ![160000]⟩ 32)
    (Wl : FVec Ideal ⟨2, ![512, 512]⟩ .f32) (b : FVec Ideal ⟨1, ![512]⟩ .f32) (Wr : FVec Ideal ⟨2, ![512, 512]⟩ .f32) :
    Cert.ReferenceIdeal.RefValue.refLayer H s d Wl b Wr = Cert.KernelIdeal.Agg.sageLayer H s d Wl b Wr := by
  rw [Cert.ReferenceIdeal.RefValue.refLayer_eq, meanAgg_eq, row512_eq]
  rfl

/-- The reference's result, as a function of its thirteen arguments, is the network. -/
theorem val_v82_ker (X : FVec Ideal ⟨2, ![10000, 512]⟩ .f32) (ei : IVec ⟨2, ![2, 160000]⟩ 32)
    (W2 : FVec Ideal ⟨2, ![512, 512]⟩ .f32) (b3 : FVec Ideal ⟨1, ![512]⟩ .f32) (W4 W5 : FVec Ideal ⟨2, ![512, 512]⟩ .f32)
    (b6 : FVec Ideal ⟨1, ![512]⟩ .f32) (W7 W8 : FVec Ideal ⟨2, ![512, 512]⟩ .f32) (b9 : FVec Ideal ⟨1, ![512]⟩ .f32)
    (W10 : FVec Ideal ⟨2, ![512, 512]⟩ .f32) (W11 : FVec Ideal ⟨2, ![512, 128]⟩ .f32) (b12 : FVec Ideal ⟨1, ![128]⟩ .f32) :
    Cert.ReferenceIdeal.Read.val_main_v82 (F := Ideal) X ei W2 b3 W4 W5 b6 W7 W8 b9 W10 W11 b12
      = Cert.KernelIdeal.Agg.network X ei W2 b3 W4 W5 b6 W7 W8 b9 W10 W11 b12 := by
  rw [Cert.ReferenceIdeal.RefValue.val_v82_eq, Cert.ReferenceIdeal.RefValue.refReadout_eq, row128_eq,
    Cert.ReferenceIdeal.RefValue.val_v78_eq, refLayer_ker, Cert.ReferenceIdeal.RefValue.val_v53_eq, refLayer_ker,
    Cert.ReferenceIdeal.RefValue.val_v28_eq, refLayer_ker]
  rfl

open Idealize.ShloMosaic.TcCoe Idealize.SL.Sem in
/-- The reference's result, as its run states it from a memory, is the network of the memory's thirteen arguments. -/
theorem ref_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v82 (F := Ideal) m c
      = Cert.KernelIdeal.Agg.network
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12)) :=
  (Cert.ReferenceIdeal.Read.val_main_v82_eq m c).trans (val_v82_ker _ _ _ _ _ _ _ _ _ _ _ _ _)

end Cert.Bridge

end
-- ==== Proof.lean ====
/-
  The certificate's five claims, assembled.

  The three programs run: the word-level kernel and its idealization by their frames (four tiled regions among
  stretches of host operations, each region's tile loading, computing and storing through whole rectangles), the
  reference by the run of its host operations. No operation was rewritten by the idealization, so it is preserved
  trivially. At the ideal instance both idealized programs end with the same result array, one function of the
  thirteen arguments: three graph layers — the mean of the neighbours' rows over the edge list, two matrix products, a
  bias and a maximum with zero — followed by a linear read-out. The kernel computes each layer tile by tile over blocks
  of rows and adds the bias after the second product; the reference computes it on whole arrays and adds the bias
  between the products, and counts a node's neighbours in a one-column array instead of a vector. Sums of extended
  reals may be regrouped and reordered freely, so the two agree entry by entry whatever the inputs; the finiteness of
  the inputs is never used.
-/
import proofs.«148625_j86285892977273_1_alg».proof.Defs
import proofs.«148625_j86285892977273_1_alg».proof.Proof.Gen.Kernel
import proofs.«148625_j86285892977273_1_alg».proof.Proof.Gen.Kernel.Skeleton
import proofs.«148625_j86285892977273_1_alg».proof.Proof.Gen.Kernel.Launch
import proofs.«148625_j86285892977273_1_alg».proof.Proof.Gen.Kernel.Points
import proofs.«148625_j86285892977273_1_alg».proof.Proof.Gen.Kernel.Frame
import proofs.«148625_j86285892977273_1_alg».proof.Proof.Gen.KernelIdeal
import proofs.«148625_j86285892977273_1_alg».proof.Proof.Gen.KernelIdeal.Skeleton
import proofs.«148625_j86285892977273_1_alg».proof.Proof.Gen.KernelIdeal.Launch
import proofs.«148625_j86285892977273_1_alg».proof.Proof.Gen.KernelIdeal.Points
import proofs.«148625_j86285892977273_1_alg».proof.Proof.Gen.KernelIdeal.Frame
import proofs.«148625_j86285892977273_1_alg».proof.Proof.Gen.ReferenceIdeal
import proofs.«148625_j86285892977273_1_alg».proof.Proof.Gen.ReferenceIdeal.Run
import proofs.«148625_j86285892977273_1_alg».proof.Proof.Gen.ReferenceIdeal.Read
import proofs.«148625_j86285892977273_1_alg».proof.Proof.Gen.Pre_finite_inputs
import proofs.«148625_j86285892977273_1_alg».proof.Proof.KerRun
import proofs.«148625_j86285892977273_1_alg».proof.Proof.KerValue
import proofs.«148625_j86285892977273_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernel_ideal : Cert.frame_KernelIdeal := fun m ρ _ => Cert.KernelIdeal.Gen.frame m ρ

/-- The idealized reference runs and leaves its arguments as launched: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the network of the arguments in their result array. -/
theorem algebraic : Cert.algebraic_KernelIdeal_ReferenceIdeal := by
  intro m ρ m' ρ' _ hagree
  refine ⟨fun c => Cert.KernelIdeal.Agg.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KerValue.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.Bridge.ref_result m' c, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
